-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x257 : Shape := ⟨2, ![512, 257]⟩
abbrev S257 : Shape := ⟨1, ![257]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x257 : S_.BroadcastsInDim S512x257 (![] : Fin 0 → Fin S512x257.rank)
  reducesTo_S512x257_S_d0_1 : S512x257.ReducesTo [0, 1] S_
  bcast_S_S257 : S_.BroadcastsInDim S257 (![] : Fin 0 → Fin S257.rank)
  reducesTo_S257_S_d0 : S257.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S256 .f32) (main_arg8 : FVec F S256x128 .f32) (main_arg9 : FVec F S128 .f32) (main_arg10 : FVec F S128x1 .f32) (main_arg11 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S512x257 .f32) (main_arg5 : FVec F S257 .f32) (main_arg6 : FVec F S512x256 .f32) (main_arg7 : FVec F S256 .f32) (main_arg8 : FVec F S256x128 .f32) (main_arg9 : FVec F S128 .f32) (main_arg10 : FVec F S128x1 .f32) (main_arg11 : FVec F S1 .f32) (main_v13 : IVec S_ 1) (main_v16 : IVec S257 1) : IVec S_ 1 :=
  let main_c_5 : IVec S_ 1 := constantI S_ 1 1#1
  let main_v17 : IVec S_ 1 := (fun x v => Host.reduce IntOp.andi x v reducesTo_S257_S_d0 h_S_) main_v16 main_c_5
  let main_v18 : IVec S_ 1 := andi main_v13 main_v17
  let main_v19 : FVec F S512x257 .f32 := Host.absf main_arg4
  let main_cst_6 : FVec F S_ .f32 := constant S_ .f32 0x7F800000#32
  let main_v20 : FVec F S512x257 .f32 := broadcastInDim S512x257 ![] bcast_S_S512x257 main_cst_6
  let main_v21 : IVec S512x257 1 := cmpf .olt main_v19 main_v20
  let main_c_7 : IVec S_ 1 := constantI S_ 1 1#1
  let main_v22 : IVec S_ 1 := (fun x v => Host.reduce IntOp.andi x v reducesTo_S512x257_S_d0_1 h_S_) main_v21 main_c_7
  let main_v23 : IVec S_ 1 := andi main_v18 main_v22
  let main_v24 : FVec F S257 .f32 := Host.absf main_arg5
  let main_cst_8 : FVec F S_ .f32 := constant S_ .f32 0x7F800000#32
  let main_v25 : FVec F S257 .f32 := broadcastInDim S257 ![] bcast_S_S257 main_cst_8
  let main_v26 : IVec S257 1 := cmpf .olt main_v24 main_v25
  let main_c_9 : IVec S_ 1 := constantI S_ 1 1#1
  let main_v27 : IVec S_ 1 := (fun x v => Host.reduce IntOp.andi x v reducesTo_S257_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x512 .f32) (main_arg1 : FVec F S16384x512 .f32) (main_arg2 : FVec F S512x257 .f32) (main_arg3 : FVec F S257 .f32) (main_arg4 : FVec F S512x257 .f32) (main_arg5 : FVec F S257 .f32) (main_arg6 : FVec F S512x256 .f32) (main_arg7 : FVec F S256 .f32) (main_arg8 : FVec F S256x128 .f32) (main_arg9 : FVec F S128 .f32) (main_arg10 : FVec F S128x1 .f32) (main_arg11 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S512x257 .f32 := Host.absf main_arg2
  let main_cst_2 : FVec F S_ .f32 := constant S_ .f32 0x7F800000#32
  let main_v10 : FVec F S512x257 .f32 := broadcastInDim S512x257 ![] bcast_S_S512x257 main_cst_2
  let main_v11 : IVec S512x257 1 := cmpf .olt main_v9 main_v10
  let main_c_3 : IVec S_ 1 := constantI S_ 1 1#1
  let main_v12 : IVec S_ 1 := (fun x v => Host.reduce IntOp.andi x v reducesTo_S512x257_S_d0_1 h_S_) main_v11 main_c_3
  let main_v13 : IVec S_ 1 := andi main_v8 main_v12
  let main_v14 : FVec F S257 .f32 := Host.absf main_arg3
  let main_cst_4 : FVec F S_ .f32 := constant S_ .f32 0x7F800000#32
  let main_v15 : FVec F S257 .f32 := broadcastInDim S257 ![] bcast_S_S257 main_cst_4
  let main_v16 : IVec S257 1 := cmpf .olt main_v14 main_v15
  fn_part1 (F := F) main_arg4 main_arg5 main_arg6 main_arg7 main_arg8 main_arg9 main_arg10 main_arg11 main_v13 main_v16
-- ==== Kernel.lean ====
abbrev S16384x512 : Shape := ⟨2, ![16384, 512]⟩
abbrev S512x257 : Shape := ⟨2, ![512, 257]⟩
abbrev S257 : Shape := ⟨1, ![257]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S512x1 : Shape := ⟨2, ![512, 1]⟩
abbrev S512x16x16 : Shape := ⟨3, ![512, 16, 16]⟩
abbrev S_ : Shape := ⟨0, ![]⟩
abbrev S512x16 : Shape := ⟨2, ![512, 16]⟩
abbrev S16x16 : Shape := ⟨2, ![16, 16]⟩
abbrev S16 : Shape := ⟨1, ![16]⟩
abbrev S512x17 : Shape := ⟨2, ![512, 17]⟩
abbrev S17 : Shape := ⟨1, ![17]⟩
abbrev S256x256 : Shape := ⟨2, ![256, 256]⟩
abbrev S1x256 : Shape := ⟨2, ![1, 256]⟩
abbrev S1x17 : Shape := ⟨2, ![1, 17]⟩
abbrev S1x128 : Shape := ⟨2, ![1, 128]⟩
abbrev S1x1 : Shape := ⟨2, ![1, 1]⟩
abbrev S16384x1 : Shape := ⟨2, ![16384, 1]⟩
abbrev S2048x512 : Shape := ⟨2, ![2048, 512]⟩
abbrev S2048x1 : Shape := ⟨2, ![2048, 1]⟩
abbrev S2048x256 : Shape := ⟨2, ![2048, 256]⟩
abbrev S2048x17 : Shape := ⟨2, ![2048, 17]⟩
abbrev S2048x16 : Shape := ⟨2, ![2048, 16]⟩
abbrev S2048 : Shape := ⟨1, ![2048]⟩
abbrev S2048x128 : Shape := ⟨2, ![2048, 128]⟩

abbrev nBuf : Space → Nat
  | .hbm => 50
  | .vmem => 21
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x257, .f32⟩
  | .hbm, ⟨3, _⟩ => ⟨S257, .f32⟩
  | .hbm, ⟨4, _⟩ => ⟨S512x257, .f32⟩
  | .hbm, ⟨5, _⟩ => ⟨S257, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S512x256, .f32⟩
  | .hbm, ⟨13, _⟩ => ⟨S512x1, .f32⟩
  | .hbm, ⟨14, _⟩ => ⟨S256, .f32⟩
  | .hbm, ⟨15, _⟩ => ⟨S1, .f32⟩
  | .hbm, ⟨16, _⟩ => ⟨S512x16x16, .f32⟩
  | .hbm, ⟨17, _⟩ => ⟨S_, .f32⟩
  | .hbm, ⟨18, _⟩ => ⟨S512x16, .f32⟩
  | .hbm, ⟨19, _⟩ => ⟨S16x16, .f32⟩
  | .hbm, ⟨20, _⟩ => ⟨S_, .f32⟩
  | .hbm, ⟨21, _⟩ => ⟨S16, .f32⟩
  | .hbm, ⟨22, _⟩ => ⟨S512x17, .f32⟩
  | .hbm, ⟨23, _⟩ => ⟨S17, .f32⟩
  | .hbm, ⟨24, _⟩ => ⟨S512x256, .f32⟩
  | .hbm, ⟨25, _⟩ => ⟨S512x1, .f32⟩
  | .hbm, ⟨26, _⟩ => ⟨S256, .f32⟩
  | .hbm, ⟨27, _⟩ => ⟨S1, .f32⟩
  | .hbm, ⟨28, _⟩ => ⟨S512x16x16, .f32⟩
  | .hbm, ⟨29, _⟩ => ⟨S_, .f32⟩
  | .hbm, ⟨30, _⟩ => ⟨S512x16, .f32⟩
  | .hbm, ⟨31, _⟩ => ⟨S16x16, .f32⟩
  | .hbm, ⟨32, _⟩ => ⟨S_, .f32⟩
  | .hbm, ⟨33, _⟩ => ⟨S16, .f32⟩
  | .hbm, ⟨34, _⟩ => ⟨S512x17, .f32⟩
  | .hbm, ⟨35, _⟩ => ⟨S17, .f32⟩
  | .hbm, ⟨36, _⟩ => ⟨S256x256, .f32⟩
  | .hbm, ⟨37, _⟩ => ⟨S256x256, .bf16⟩
  | .hbm, ⟨38, _⟩ => ⟨S256x256, .f32⟩
  | .hbm, ⟨39, _⟩ => ⟨S256x256, .bf16⟩
  | .hbm, ⟨40, _⟩ => ⟨S256x128, .bf16⟩
  | .hbm, ⟨41, _⟩ => ⟨S128x1, .bf16⟩
  | .hbm, ⟨42, _⟩ => ⟨S1x256, .f32⟩
  | .hbm, ⟨43, _⟩ => ⟨S1x17, .f32⟩
  | .hbm, ⟨44, _⟩ => ⟨S1x256, .f32⟩
  | .hbm, ⟨45, _⟩ => ⟨S1x17, .f32⟩
  | .hbm, ⟨46, _⟩ => ⟨S1x256, .f32⟩
  | .hbm, ⟨47, _⟩ => ⟨S1x128, .f32⟩
  | .hbm, ⟨48, _⟩ => ⟨S1x1, .f32⟩
  | .hbm, ⟨49, _⟩ => ⟨S16384x1, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x256, .f32⟩
  | .local _ .vmem, ⟨5, _⟩ => ⟨S512x17, .f32⟩
  | .local _ .vmem, ⟨6, _⟩ => ⟨S1x256, .f32⟩
  | .local _ .vmem, ⟨7, _⟩ => ⟨S1x17, .f32⟩
  | .local _ .vmem, ⟨8, _⟩ => ⟨S512x256, .f32⟩
  | .local _ .vmem, ⟨9, _⟩ => ⟨S512x17, .f32⟩
  | .local _ .vmem, ⟨10, _⟩ => ⟨S1x256, .f32⟩
  | .local _ .vmem, ⟨11, _⟩ => ⟨S1x17, .f32⟩
  | .local _ .vmem, ⟨12, _⟩ => ⟨S256x256, .bf16⟩
  | .local _ .vmem, ⟨13, _⟩ => ⟨S256x256, .bf16⟩
  | .local _ .vmem, ⟨14, _⟩ => ⟨S1x256, .f32⟩
  | .local _ .vmem, ⟨15, _⟩ => ⟨S256x128, .bf16⟩
  | .local _ .vmem, ⟨16, _⟩ => ⟨S1x128, .f32⟩
  | .local _ .vmem, ⟨17, _⟩ => ⟨S128x1, .bf16⟩
  | .local _ .vmem, ⟨18, _⟩ => ⟨S1x1, .f32⟩
  | .local _ .vmem, ⟨19, _⟩ => ⟨S2048x1, .f32⟩
  | .local _ .vmem, ⟨20, _⟩ => ⟨S2048x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x17 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x17 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x17 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x17 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2048x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S512x257_S512x256_0_0 : S512x257.Slices ![0, 0] S512x256
  slices_S512x257_S512x1_0_256 : S512x257.Slices ![0, 256] S512x1
  slices_S257_S256_0 : S257.Slices ![0] S256
  slices_S257_S1_256 : S257.Slices ![256] S1
  shapeCasts_S512x256_S512x16x16 : S512x256.ShapeCasts S512x16x16
  reducesTo_S512x16x16_S512x16_d1 : S512x16x16.ReducesTo [1] S512x16
  h_S_ : 0 < S_.numel
  shapeCasts_S256_S16x16 : S256.ShapeCasts S16x16
  reducesTo_S16x16_S16_d0 : S16x16.ReducesTo [0] S16
  concatenates_S512x16_S512x1_S512x17_d1 : Shape.Concatenates [S512x16, S512x1] S512x17 1
  concatenates_S16_S1_S17_d0 : Shape.Concatenates [S16, S1] S17 0
  slices_S512x256_S256x256_0_0 : S512x256.Slices ![0, 0] S256x256
  bitsLt_bf16_f32 : FTy.bits .bf16 < FTy.bits .f32
  slices_S512x256_S256x256_256_0 : S512x256.Slices ![256, 0] S256x256
  shapeCasts_S256_S1x256 : S256.ShapeCasts S1x256
  shapeCasts_S17_S1x17 : S17.ShapeCasts S1x17
  shapeCasts_S128_S1x128 : S128.ShapeCasts S1x128
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S512x17_S512x17_0_0 : ∀ a, (![0, 0] : Fin 2 → Nat) a + S512x17.size a ≤ S512x17.size a
  h_S512x17 : 0 < S512x17.numel
  shapeCasts_S512x17_S512x17 : S512x17.ShapeCasts S512x17
  inb_S1x17_S1x17_0_0 : ∀ a, (![0, 0] : Fin 2 → Nat) a + S1x17.size a ≤ S1x17.size a
  h_S1x17 : 0 < S1x17.numel
  shapeCasts_S1x17_S1x17 : S1x17.ShapeCasts S1x17
  broadcasts_S1x17_S2048x17 : S1x17.Broadcasts S2048x17
  slices_S2048x17_o0_0_S2048x16 : S2048x17.Slices ![0, 0] S2048x16
  slices_S2048x17_o0_16_S2048x1 : S2048x17.Slices ![0, 16] S2048x1
  reduces_S2048x16_S2048 : S2048x16.Reduces [1] S2048
  shapeCasts_S2048_S2048x1 : S2048.ShapeCasts S2048x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x512_S512x256_S2048x256_1_0_0_1_n_n_wf : DotDims.WF S2048x512 S512x256 S2048x256 [1] [0] [0] [1] [] []
  dot_S2048x512_S512x17_S2048x17_1_0_0_1_n_n_wf : DotDims.WF S2048x512 S512x17 S2048x17 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x17.size a ≤ S512x17.size a
  hwx0_3 : ∀ i : grid0.Coords, EltTy.bits .f32 = 32 ∨ (Rect.block (s := S512x17) S512x17.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x17.size a ≤ S1x17.size a
  hwx0_5 : ∀ i : grid0.Coords, EltTy.bits .f32 = 32 ∨ (Rect.block (s := S1x17) S1x17.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x17.size a ≤ S512x17.size a
  hwx0_7 : ∀ i : grid0.Coords, EltTy.bits .f32 = 32 ∨ (Rect.block (s := S512x17) S512x17.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x17.size a ≤ S1x17.size a
  hwx0_9 : ∀ i : grid0.Coords, EltTy.bits .f32 = 32 ∨ (Rect.block (s := S1x17) S1x17.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S256x128.size a
  hwx0_13 : ∀ i : grid0.Coords, EltTy.bits .bf16 = 32 ∨ (Rect.block (s := S256x128) S256x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x1.size a ≤ S128x1.size a
  hwx0_15 : ∀ i : grid0.Coords, EltTy.bits .bf16 = 32 ∨ (Rect.block (s := S128x1) S128x1.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x1.size a ≤ S16384x1.size a
  hwx0_17 : ∀ i : grid0.Coords, EltTy.bits .f32 = 32 ∨ (Rect.block (s := S16384x1) S2048x1.size (cc0_transform_17 i) (hinb0_17 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x512_S512x17_S2048x17_1_0_0_1_n_n : DotDims S2048x512 S512x17 S2048x17 where
  lhsContracting := [1]
  rhsContracting := [0]
  lhsNonContracting := [0]
  rhsNonContracting := [1]
  lhsBatch := []
  rhsBatch := []
  wf := dot_S2048x512_S512x17_S2048x17_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x17.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x17.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S512x17.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1x17.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v30) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S256x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v31) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v25) S128x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v32) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v33) S2048x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x257 : Shape := ⟨2, ![512, 257]⟩
abbrev S257 : Shape := ⟨1, ![257]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S16384x257 : Shape := ⟨2, ![16384, 257]⟩
abbrev S1x257 : Shape := ⟨2, ![1, 257]⟩
abbrev S16384x1 : Shape := ⟨2, ![16384, 1]⟩
abbrev S16384 : Shape := ⟨1, ![16384]⟩
abbrev S16384x256 : Shape := ⟨2, ![16384, 256]⟩
abbrev S16384x16x16 : Shape := ⟨3, ![16384, 16, 16]⟩
abbrev S1x256 : Shape := ⟨2, ![1, 256]⟩
abbrev S_ : Shape := ⟨0, ![]⟩
abbrev S16384x128 : Shape := ⟨2, ![16384, 128]⟩
abbrev S1x128 : Shape := ⟨2, ![1, 128]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x257, .f32⟩
  | .hbm, ⟨3, _⟩ => ⟨S257, .f32⟩
  | .hbm, ⟨4, _⟩ => ⟨S512x257, .f32⟩
  | .hbm, ⟨5, _⟩ => ⟨S257, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S16384x257, .f32⟩
  | .hbm, ⟨13, _⟩ => ⟨S1x257, .f32⟩
  | .hbm, ⟨14, _⟩ => ⟨S16384x257, .f32⟩
  | .hbm, ⟨15, _⟩ => ⟨S16384x257, .f32⟩
  | .hbm, ⟨16, _⟩ => ⟨S16384x257, .f32⟩
  | .hbm, ⟨17, _⟩ => ⟨S1x257, .f32⟩
  | .hbm, ⟨18, _⟩ => ⟨S16384x257, .f32⟩
  | .hbm, ⟨19, _⟩ => ⟨S16384x257, .f32⟩
  | .hbm, ⟨20, _⟩ => ⟨S16384x1, .f32⟩
  | .hbm, ⟨21, _⟩ => ⟨S16384, .f32⟩
  | .hbm, ⟨22, _⟩ => ⟨S16384x1, .f32⟩
  | .hbm, ⟨23, _⟩ => ⟨S16384, .f32⟩
  | .hbm, ⟨24, _⟩ => ⟨S16384, .f32⟩
  | .hbm, ⟨25, _⟩ => ⟨S16384x256, .f32⟩
  | .hbm, ⟨26, _⟩ => ⟨S16384x16x16, .f32⟩
  | .hbm, ⟨27, _⟩ => ⟨S16384x256, .f32⟩
  | .hbm, ⟨28, _⟩ => ⟨S16384x16x16, .f32⟩
  | .hbm, ⟨29, _⟩ => ⟨S16384x16x16, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x512, .f32⟩
  | .hbm, ⟨34, _⟩ => ⟨S16384x256, .f32⟩
  | .hbm, ⟨35, _⟩ => ⟨S1x256, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S16384x128, .f32⟩
  | .hbm, ⟨42, _⟩ => ⟨S1x128, .f32⟩
  | .hbm, ⟨43, _⟩ => ⟨S16384x128, .f32⟩
  | .hbm, ⟨44, _⟩ => ⟨S16384x128, .f32⟩
  | .hbm, ⟨45, _⟩ => ⟨S_, .f32⟩
  | .hbm, ⟨46, _⟩ => ⟨S16384x128, .f32⟩
  | .hbm, ⟨47, _⟩ => ⟨S16384x128, .f32⟩
  | .hbm, ⟨48, _⟩ => ⟨S16384x1, .f32⟩
  | .hbm, ⟨49, _⟩ => ⟨S1x1, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call1_cst : Ref sig .tc := ⟨.hbm, 45, rfl⟩
abbrev main_call1_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S257_S1x257_1 : S257.BroadcastsInDim S1x257 (![1] : Fin 1 → Fin S1x257.rank)
  bcast_S1x257_S16384x257_0_1 : S1x257.BroadcastsInDim S16384x257 (![0, 1] : Fin 2 → Fin S16384x257.rank)
  slices_S16384x257_S16384x1_0_256 : S16384x257.Slices ![0, 256] S16384x1
  shapeCasts_S16384x1_S16384 : S16384x1.ShapeCasts S16384
  slices_S16384x257_S16384x256_0_0 : S16384x257.Slices ![0, 0] S16384x256
  shapeCasts_S16384x256_S16384x16x16 : S16384x256.ShapeCasts S16384x16x16
  shapeCasts_S16384x16x16_S16384x256 : S16384x16x16.ShapeCasts S16384x256
  concatenates_S16384x256_S16384x256_S16384x512_d1 : Shape.Concatenates [S16384x256, S16384x256] S16384x512 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S16384_S16384x1_0 : S16384.BroadcastsInDim S16384x1 (![0] : Fin 1 → Fin S16384x1.rank)
  reducesTo_S16384x256_S16384_d1 : S16384x256.ReducesTo [1] S16384
  h_S_ : 0 < S_.numel
  dot_S16384x512_S512x257_S16384x257_1_0_0_1_n_n_wf : DotDims.WF S16384x512 S512x257 S16384x257 [1] [0] [0] [1] [] []
  dot_S16384x16x16_S16384x16x16_S16384x16x16_2_2_1_1_0_0_wf : DotDims.WF S16384x16x16 S16384x16x16 S16384x16x16 [2] [2] [1] [1] [0] [0]
  dot_S16384x512_S512x256_S16384x256_1_0_0_1_n_n_wf : DotDims.WF S16384x512 S512x256 S16384x256 [1] [0] [0] [1] [] []
  dot_S16384x256_S256x128_S16384x128_1_0_0_1_n_n_wf : DotDims.WF S16384x256 S256x128 S16384x128 [1] [0] [0] [1] [] []
  dot_S16384x128_S128x1_S16384x1_1_0_0_1_n_n_wf : DotDims.WF S16384x128 S128x1 S16384x1 [1] [0] [0] [1] [] []

variable [Facts₀]

def dot_S16384x512_S512x257_S16384x257_1_0_0_1_n_n : DotDims S16384x512 S512x257 S16384x257 where
  lhsContracting := [1]
  rhsContracting := [0]
  lhsNonContracting := [0]
  rhsNonContracting := [1]
  lhsBatch := []
  rhsBatch := []
  wf := dot_S16384x512_S512x257_S16384x257_1_0_0_1_n_n_wf
def dot_S16384x16x16_S16384x16x16_S16384x16x16_2_2_1_1_0_0 : DotDims S16384x16x16 S16384x16x16 S16384x16x16 where
  lhsContracting := [2]
  rhsContracting := [2]
  lhsNonContracting := [1]
  rhsNonContracting := [1]
  lhsBatch := [0]
  rhsBatch := [0]
  wf := dot_S16384x16x16_S16384x16x16_S16384x16x16_2_2_1_1_0_0_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.RowSpec.lean ====
/-
  One row of a two-tower factorization-machine network, as plain functions over the extended reals.

  A row `x` of 512 movie features and a row `y` of 512 user features each pass through a linear tower with 257
  outputs: sixteen embeddings of sixteen coordinates (column `16 i + k` is coordinate `k` of embedding `i`) and one
  additive term (column 256). The output for the row is the sum of three numbers:

  * a three-layer perceptron (512 → 256 → 128 → 1, clamped at zero from below after the first two layers) of the
    512 embedding coordinates of both towers, movie first;
  * the two additive terms;
  * the interaction term: the sum over all pairs (i, j) of the inner product of movie embedding `i` and user
    embedding `j`.

  `refRow` writes this down directly. `kerRow` is a second arrangement of the same number: the interaction term is
  `Σ_k (Σ_i m(i,k)) · (Σ_j u(j,k))`, and each `Σ_i m(i,k)` is itself one output of a seventeen-column linear map
  whose weights are the tower's weights summed over the sixteen embeddings (`foldW`, `foldB`), its seventeenth
  column being the additive term; and the first perceptron layer is taken as two 256-term contractions, one per
  tower, added. That the two arrangements agree when every entry is a real number is proved elsewhere; here are
  only the definitions, shared by the readings of both programs.
-/
import Mathlib.Data.EReal.Operations
import Mathlib.Algebra.BigOperators.Ring.Finset
import Mathlib.Algebra.BigOperators.Fin

open scoped BigOperators

noncomputable section

namespace Cert.TowerFM

/-- Column `16 i + k` of a tower's 257 outputs: coordinate `k` of embedding `i`. -/
def emb (i k : Fin 16) : Fin 257 := ⟨16 * i.val + k.val, by have := i.isLt; have := k.isLt; omega⟩

/-- The tower's last column: its additive term. -/
def addCol : Fin 257 := ⟨256, by omega⟩

/-- Column `c < 256` among the 257. -/
def mainCol (c : Fin 256) : Fin 257 := ⟨c.val, by have := c.isLt; omega⟩

/-- Rows `c` and `256 + c` of a 512-row matrix: the movie half and the user half. -/
def lowRow (c : Fin 256) : Fin 512 := ⟨c.val, by have := c.isLt; omega⟩
def highRow (c : Fin 256) : Fin 512 := ⟨256 + c.val, by have := c.isLt; omega⟩

/-- Among seventeen columns: the sixteen summed coordinates and the additive term. -/
def sumCol (k : Fin 16) : Fin 17 := ⟨k.val, by have := k.isLt; omega⟩
def extraCol : Fin 17 := ⟨16, by omega⟩

/-- A pair index `c = 16 i + j < 256` split into `i` and `j`. -/
def hi16 (c : Fin 256) : Fin 16 := ⟨c.val / 16, by have := c.isLt; omega⟩
def lo16 (c : Fin 256) : Fin 16 := ⟨c.val % 16, by have := c.isLt; omega⟩

/-- One output column of a linear layer on one input row: `Σ_k x_k · W(k, c) + b_c`. -/
def lin {n o : ℕ} (x : Fin n → EReal) (W : Fin n → Fin o → EReal) (b : Fin o → EReal) (c : Fin o) : EReal :=
  (∑ k : Fin n, x k * W k c) + b c

/-- The clamp at zero from below. -/
def relu (v : EReal) : EReal := max v 0

/-- The perceptron after its first contraction: clamp, second layer, clamp, third layer. -/
def tail (pre : Fin 256 → EReal) (W2 : Fin 256 → Fin 128 → EReal) (b2 : Fin 128 → EReal)
    (W3 : Fin 128 → Fin 1 → EReal) (b3 : Fin 1 → EReal) : EReal :=
  lin (fun k : Fin 128 => relu (lin (fun j : Fin 256 => relu (pre j)) W2 b2 k)) W3 b3 0

/-- The 512 embedding coordinates of both towers, movie first. -/
def joined (md ud : Fin 257 → EReal) (c : Fin 512) : EReal :=
  if h : c.val < 256 then md (mainCol ⟨c.val, h⟩) else ud (mainCol ⟨c.val - 256, by have := c.isLt; omega⟩)

/-- The row's output, written directly. -/
def refRow (x y : Fin 512 → EReal) (Wm : Fin 512 → Fin 257 → EReal) (bm : Fin 257 → EReal)
    (Wu : Fin 512 → Fin 257 → EReal) (bu : Fin 257 → EReal) (W1 : Fin 512 → Fin 256 → EReal) (b1 : Fin 256 → EReal)
    (W2 : Fin 256 → Fin 128 → EReal) (b2 : Fin 128 → EReal) (W3 : Fin 128 → Fin 1 → EReal) (b3 : Fin 1 → EReal) : EReal :=
  (tail (lin (joined (lin x Wm bm) (lin y Wu bu)) W1 b1) W2 b2 W3 b3
      + (lin x Wm bm addCol + lin y Wu bu addCol))
    + ∑ c : Fin 256, ∑ k : Fin 16, lin x Wm bm (emb (hi16 c) k) * lin y Wu bu (emb (lo16 c) k)

/-- The second arrangement, over whatever weights the seventeen-column maps and the split first layer are given. -/
def kerRowGen (x y : Fin 512 → EReal)
    (wmM : Fin 512 → Fin 256 → EReal) (wmC : Fin 512 → Fin 17 → EReal) (bmM : Fin 256 → EReal) (bmC : Fin 17 → EReal)
    (wuM : Fin 512 → Fin 256 → EReal) (wuC : Fin 512 → Fin 17 → EReal) (buM : Fin 256 → EReal) (buC : Fin 17 → EReal)
    (w1m w1u : Fin 256 → Fin 256 → EReal) (b1 : Fin 256 → EReal)
    (W2 : Fin 256 → Fin 128 → EReal) (b2 : Fin 128 → EReal) (W3 : Fin 128 → Fin 1 → EReal) (b3 : Fin 1 → EReal) : EReal :=
  (tail (fun j => ((∑ c : Fin 256, lin x wmM bmM c * w1m c j) + (∑ c : Fin 256, lin y wuM buM c * w1u c j)) + b1 j)
        W2 b2 W3 b3
      + (lin x wmC bmC extraCol + lin y wuC buC extraCol))
    + ∑ k : Fin 16, lin x wmC bmC (sumCol k) * lin y wuC buC (sumCol k)

/-- A tower's weights summed over the sixteen embeddings, coordinate by coordinate, with the additive column kept
    as the seventeenth. -/
def foldW (W : Fin 512 → Fin 257 → EReal) (r : Fin 512) (k : Fin 17) : EReal :=
  if h : k.val < 16 then ∑ i : Fin 16, W r (emb i ⟨k.val, h⟩) else W r addCol

/-- The same of a tower's bias. -/
def foldB (b : Fin 257 → EReal) (k : Fin 17) : EReal :=
  if h : k.val < 16 then ∑ i : Fin 16, b (emb i ⟨k.val, h⟩) else b addCol

/-- The second arrangement over the network's own weights. -/
def kerRow (x y : Fin 512 → EReal) (Wm : Fin 512 → Fin 257 → EReal) (bm : Fin 257 → EReal)
    (Wu : Fin 512 → Fin 257 → EReal) (bu : Fin 257 → EReal) (W1 : Fin 512 → Fin 256 → EReal) (b1 : Fin 256 → EReal)
    (W2 : Fin 256 → Fin 128 → EReal) (b2 : Fin 128 → EReal) (W3 : Fin 128 → Fin 1 → EReal) (b3 : Fin 1 → EReal) : EReal :=
  kerRowGen x y (fun r c => Wm r (mainCol c)) (foldW Wm) (fun c => bm (mainCol c)) (foldB bm)
    (fun r c => Wu r (mainCol c)) (foldW Wu) (fun c => bu (mainCol c)) (foldB bu)
    (fun c j => W1 (lowRow c) j) (fun c j => W1 (highRow c) j) b1 W2 b2 W3 b3

end Cert.TowerFM

end
-- ==== Proof.ArraySpec.lean ====
/-
  The network's output as a whole array: entry (p, 0) is the row function of row p of the two feature arrays and of
  the weights. A rank-2 array is read as rows or as a matrix, a rank-1 array as a vector, through the indices built
  from coordinates; `refOut` is the direct arrangement at every row and `kerOut` the second one (RowSpec.lean).
-/
import Idealize.ShloMosaic.Lib.ValueIdx
import proofs.«161281_j72189810311759_2_alg».proof.Proof.RowSpec

noncomputable section

namespace Cert.TowerFM

open Idealize.ShloMosaic Idealize.ShloMosaic.ValueIdx

/-- Rank-2 and rank-1 shapes by their extents. -/
abbrev Sh2 (a b : ℕ) : Shape := ⟨2, ![a, b]⟩
abbrev Sh1 (a : ℕ) : Shape := ⟨1, ![a]⟩

/-- Row `p` of a rank-2 array. -/
def rowOf {a b : ℕ} (X : (Sh2 a b).Idx → EReal) (p : Fin a) : Fin b → EReal := fun k => X (ix2 p k)

/-- A rank-2 array as a matrix. -/
def mat {a b : ℕ} (X : (Sh2 a b).Idx → EReal) : Fin a → Fin b → EReal := fun r c => X (ix2 r c)

/-- A rank-1 array as a vector. -/
def vec {a : ℕ} (v : (Sh1 a).Idx → EReal) : Fin a → EReal := fun c => v (ix1 c)

/-- A one-row rank-2 array as a vector: its row 0. -/
def row0 {a : ℕ} (v : (Sh2 1 a).Idx → EReal) : Fin a → EReal := fun c => v (ix2 (0 : Fin 1) c)

/-- The first coordinate of an index of a rank-2 shape, typed by the extent. -/
abbrev rowIx {a b : ℕ} (i : (Sh2 a b).Idx) : Fin a := ⟨(i 0).val, (i 0).isLt⟩

/-- The output array, direct arrangement: entry `i` is `refRow` of row `i 0`. -/
def refOut (mv uv : (Sh2 16384 512).Idx → EReal) (Wm : (Sh2 512 257).Idx → EReal) (bm : (Sh1 257).Idx → EReal)
    (Wu : (Sh2 512 257).Idx → EReal) (bu : (Sh1 257).Idx → EReal) (W1 : (Sh2 512 256).Idx → EReal)
    (b1 : (Sh1 256).Idx → EReal) (W2 : (Sh2 256 128).Idx → EReal) (b2 : (Sh1 128).Idx → EReal)
    (W3 : (Sh2 128 1).Idx → EReal) (b3 : (Sh1 1).Idx → EReal) : (Sh2 16384 1).Idx → EReal :=
  fun i => refRow (rowOf mv (rowIx i)) (rowOf uv (rowIx i)) (mat Wm) (vec bm) (mat Wu) (vec bu) (mat W1) (vec b1)
    (mat W2) (vec b2) (mat W3) (vec b3)

/-- The output array, second arrangement: entry `i` is `kerRow` of row `i 0`. -/
def kerOut (mv uv : (Sh2 16384 512).Idx → EReal) (Wm : (Sh2 512 257).Idx → EReal) (bm : (Sh1 257).Idx → EReal)
    (Wu : (Sh2 512 257).Idx → EReal) (bu : (Sh1 257).Idx → EReal) (W1 : (Sh2 512 256).Idx → EReal)
    (b1 : (Sh1 256).Idx → EReal) (W2 : (Sh2 256 128).Idx → EReal) (b2 : (Sh1 128).Idx → EReal)
    (W3 : (Sh2 128 1).Idx → EReal) (b3 : (Sh1 1).Idx → EReal) : (Sh2 16384 1).Idx → EReal :=
  fun i => kerRow (rowOf mv (rowIx i)) (rowOf uv (rowIx i)) (mat Wm) (vec bm) (mat Wu) (vec bu) (mat W1) (vec b1)
    (mat W2) (vec b2) (mat W3) (vec b3)

end Cert.TowerFM

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibSliceAt.lean ====
/-
  Unit-stride slices of rank-2 and rank-3 arrays read at an index written by coordinates, generic extents and element
  type: the slice at (p, j) is the operand at the coordinates shifted by the offsets. The coordinates of the operand
  index are given with the two (three) shift equations, so that a caller chooses how to spell them.
-/
import Idealize.ShloMosaic.Lib.Pipeline.Value
import Idealize.ShloMosaic.Lib.ValueIdx

namespace Cert.Lib.SliceAt

open Idealize.ShloMosaic Idealize.ShloMosaic.ValueIdx

variable {α : Type}

/-- A slice of an [R, C] array at (p, j) is the array at (off 0 + p, off 1 + j). -/
theorem slice2_apply {R C R' C' : ℕ} (off : Fin 2 → ℕ) (x : (⟨2, ![R, C]⟩ : Shape).Idx → α)
    (h : (⟨2, ![R, C]⟩ : Shape).Slices off ⟨2, ![R', C']⟩) (p : Fin R') (j : Fin C') (p' : Fin R) (j' : Fin C)
    (hp : p'.val = off 0 + p.val) (hj : j'.val = off 1 + j.val) :
    extractStridedSlice ⟨2, ![R', C']⟩ off x h (ix2 p j) = x (ix2 p' j') :=
  extractStridedSlice_apply off x h (ix2 p j) (ix2 p' j') fun a => by
    match a with
    | ⟨0, _⟩ => exact hp
    | ⟨1, _⟩ => exact hj

/-- A slice of a [B, R, C] array at (b, p, j) is the array at (off 0 + b, off 1 + p, off 2 + j). -/
theorem slice3_apply {B R C B' R' C' : ℕ} (off : Fin 3 → ℕ) (x : (⟨3, ![B, R, C]⟩ : Shape).Idx → α)
    (h : (⟨3, ![B, R, C]⟩ : Shape).Slices off ⟨3, ![B', R', C']⟩) (b : Fin B') (p : Fin R') (j : Fin C')
    (b' : Fin B) (p' : Fin R) (j' : Fin C)
    (hb : b'.val = off 0 + b.val) (hp : p'.val = off 1 + p.val) (hj : j'.val = off 2 + j.val) :
    extractStridedSlice ⟨3, ![B', R', C']⟩ off x h (ix3 b p j) = x (ix3 b' p' j') :=
  extractStridedSlice_apply off x h (ix3 b p j) (ix3 b' p' j') fun a => by
    match a with
    | ⟨0, _⟩ => exact hb
    | ⟨1, _⟩ => exact hp
    | ⟨2, _⟩ => exact hj

end Cert.Lib.SliceAt
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KerPayloadA.lean ====
/-
  The kernel body's arithmetic read at one row of a block.

  The body takes a block of 2048 movie rows and 2048 user rows and the (whole) weight arrays. Every product in it
  contracts a row of its left operand with a column of its right operand into a zero accumulator, and every bias is a
  one-row array broadcast down the rows, so each stage at (p, c) is a sum over the contracted coordinate plus the
  bias entry at c. This file reads the first half of the body that way: the four tower products (256 main columns
  and 17 folded columns per tower), the two 16-column slices whose product feeds the interaction term, and the sum of
  the two additive columns.
-/
import proofs.«161281_j72189810311759_2_alg».proof.Proof.Gen.KernelIdeal.Skeleton
import proofs.«161281_j72189810311759_2_alg».proof.Proof.ArraySpec
import proofs.«161281_j72189810311759_2_alg».proof.Proof.LibPlainDot
import proofs.«161281_j72189810311759_2_alg».proof.Proof.LibSliceAt
import proofs.«161281_j72189810311759_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.TowerFM.Payload

open Cert.KernelIdeal Cert.KernelIdeal.Gen Idealize.ShloMosaic Idealize.ShloMosaic.ValueIdx Cert.Lib.PlainDot Cert.TowerFM

/-! ## Each product's dimension record contracts the left operand's columns with the right operand's rows -/

theorem r512x256 : Reads dot_S2048x512_S512x256_S2048x256_1_0_0_1_n_n where
  rank := rfl
  size := rfl
  lhs0 := fun i q => by
    unfold DotDims.lhsIdx
    rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
    rfl
  lhs1 := fun i q => dot_S2048x512_S512x256_S2048x256_1_0_0_1_n_n.lhsIdx_val_of_single rfl i q
  rhs0 := fun i q => dot_S2048x512_S512x256_S2048x256_1_0_0_1_n_n.rhsIdx_val_of_single rfl i q
  rhs1 := fun i q => by
    unfold DotDims.rhsIdx
    rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
    rfl

theorem r512x17 : Reads dot_S2048x512_S512x17_S2048x17_1_0_0_1_n_n where
  rank := rfl
  size := rfl
  lhs0 := fun i q => by
    unfold DotDims.lhsIdx
    rw [dif_neg (show ¬(0 : Fin S2048x512.rank) ∈ dot_S2048x512_S512x17_S2048x17_1_0_0_1_n_n.lhsBatch by decide), dif_pos (show (0 : Fin S2048x512.rank) ∈ dot_S2048x512_S512x17_S2048x17_1_0_0_1_n_n.lhsNonContracting by decide)]
    rfl
  lhs1 := fun i q => dot_S2048x512_S512x17_S2048x17_1_0_0_1_n_n.lhsIdx_val_of_single rfl i q
  rhs0 := fun i q => dot_S2048x512_S512x17_S2048x17_1_0_0_1_n_n.rhsIdx_val_of_single rfl i q
  rhs1 := fun i q => by
    unfold DotDims.rhsIdx
    rw [dif_neg (show ¬(1 : Fin S512x17.rank) ∈ dot_S2048x512_S512x17_S2048x17_1_0_0_1_n_n.rhsBatch by decide), dif_pos (show (1 : Fin S512x17.rank) ∈ dot_S2048x512_S512x17_S2048x17_1_0_0_1_n_n.rhsNonContracting by decide)]
    rfl

theorem r256x256 : Reads dot_S2048x256_S256x256_S2048x256_1_0_0_1_n_n where
  rank := rfl
  size := rfl
  lhs0 := fun i q => by
    unfold DotDims.lhsIdx
    rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
    rfl
  lhs1 := fun i q => dot_S2048x256_S256x256_S2048x256_1_0_0_1_n_n.lhsIdx_val_of_single rfl i q
  rhs0 := fun i q => dot_S2048x256_S256x256_S2048x256_1_0_0_1_n_n.rhsIdx_val_of_single rfl i q
  rhs1 := fun i q => by
    unfold DotDims.rhsIdx
    rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
    rfl

theorem r256x128 : Reads dot_S2048x256_S256x128_S2048x128_1_0_0_1_n_n where
  rank := rfl
  size := rfl
  lhs0 := fun i q => by
    unfold DotDims.lhsIdx
    rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
    rfl
  lhs1 := fun i q => dot_S2048x256_S256x128_S2048x128_1_0_0_1_n_n.lhsIdx_val_of_single rfl i q
  rhs0 := fun i q => dot_S2048x256_S256x128_S2048x128_1_0_0_1_n_n.rhsIdx_val_of_single rfl i q
  rhs1 := fun i q => by
    unfold DotDims.rhsIdx
    rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
    rfl

theorem r128x1 : Reads dot_S2048x128_S128x1_S2048x1_1_0_0_1_n_n where
  rank := rfl
  size := rfl
  lhs0 := fun i q => by
    unfold DotDims.lhsIdx
    rw [dif_neg (show ¬(0 : Fin S2048x128.rank) ∈ dot_S2048x128_S128x1_S2048x1_1_0_0_1_n_n.lhsBatch by decide), dif_pos (show (0 : Fin S2048x128.rank) ∈ dot_S2048x128_S128x1_S2048x1_1_0_0_1_n_n.lhsNonContracting by decide)]
    rfl
  lhs1 := fun i q => dot_S2048x128_S128x1_S2048x1_1_0_0_1_n_n.lhsIdx_val_of_single rfl i q
  rhs0 := fun i q => dot_S2048x128_S128x1_S2048x1_1_0_0_1_n_n.rhsIdx_val_of_single rfl i q
  rhs1 := fun i q => by
    unfold DotDims.rhsIdx
    rw [dif_neg (show ¬(1 : Fin S128x1.rank) ∈ dot_S2048x128_S128x1_S2048x1_1_0_0_1_n_n.rhsBatch by decide), dif_pos (show (1 : Fin S128x1.rank) ∈ dot_S2048x128_S128x1_S2048x1_1_0_0_1_n_n.rhsNonContracting by decide)]
    rfl

/-! ## A product into the zero accumulator plus a bias row, at (p, c) -/

/-- `Σ_k l(p, k) · w(k, c) + b(0, c)`: the product accumulated from zero, the bias row broadcast down the rows, the
    weight and bias passed through identity reshapes as the body writes them. -/
theorem dense_at {R K C : ℕ} {φ₁ φ₂ : FTy} {d : DotDims (Sh2 R K) (Sh2 K C) (Sh2 R C)} (hd : Reads d)
    (prec : Option ContractPrecision) (l : FVec Ideal (Sh2 R K) φ₁) (w : FVec Ideal (Sh2 K C) φ₂)
    (b : FVec Ideal (Sh2 1 C) .f32) (hw : (Sh2 K C).ShapeCasts (Sh2 K C)) (hb : (Sh2 1 C).ShapeCasts (Sh2 1 C))
    (hbr : (Sh2 1 C).Broadcasts (Sh2 R C)) (p : Fin R) (c : Fin C) :
    addf (matmul d prec l (shapeCast (Sh2 K C) w hw) (constant (F := Ideal) (Sh2 R C) .f32 0x00000000#32))
        (broadcastTo (Sh2 R C) (shapeCast (Sh2 1 C) b hb) hbr) (ix2 p c)
      = (∑ k : Fin K, l (ix2 p k) * w (ix2 k c)) + b (ix2 (0 : Fin 1) c) := by
  rw [shapeCast_self, shapeCast_self, addf_apply, broadcastTo_1b_ab_apply]
  exact congrArg (· + b (ix2 (0 : Fin 1) c)) (matmul_zero_apply hd prec l w p c)

/-! ## The four tower products -/

theorem pay1_at (v0 : FVec Ideal S2048x512 .f32) (v2 : FVec Ideal S512x256 .f32) (v5 : FVec Ideal S1x256 .f32)
    (p : Fin 2048) (c : Fin 256) :
    k0_pay1 (F := Ideal) v0 v2 v5 (ix2 p c) = (∑ k : Fin 512, v0 (ix2 p k) * v2 (ix2 k c)) + v5 (ix2 (0 : Fin 1) c) :=
  dense_at r512x256 _ v0 v2 v5 _ _ _ p c

theorem pay3_at (v1 : FVec Ideal S2048x512 .f32) (v16 : FVec Ideal S512x256 .f32) (v19 : FVec Ideal S1x256 .f32)
    (p : Fin 2048) (c : Fin 256) :
    k0_pay3 (F := Ideal) v1 v16 v19 (ix2 p c) = (∑ k : Fin 512, v1 (ix2 p k) * v16 (ix2 k c)) + v19 (ix2 (0 : Fin 1) c) :=
  dense_at r512x256 _ v1 v16 v19 _ _ _ p c

theorem pay2_at (v0 : FVec Ideal S2048x512 .f32) (v9 : FVec Ideal S512x17 .f32) (v12 : FVec Ideal S1x17 .f32)
    (p : Fin 2048) (c : Fin 17) :
    k0_pay2 (F := Ideal) v0 v9 v12 (ix2 p c) = (∑ k : Fin 512, v0 (ix2 p k) * v9 (ix2 k c)) + v12 (ix2 (0 : Fin 1) c) :=
  dense_at r512x17 _ v0 v9 v12 _ _ _ p c

theorem pay4_at (v1 : FVec Ideal S2048x512 .f32) (v23 : FVec Ideal S512x17 .f32) (v26 : FVec Ideal S1x17 .f32)
    (p : Fin 2048) (c : Fin 17) :
    k0_pay4 (F := Ideal) v1 v23 v26 (ix2 p c) = (∑ k : Fin 512, v1 (ix2 p k) * v23 (ix2 k c)) + v26 (ix2 (0 : Fin 1) c) :=
  dense_at r512x17 _ v1 v23 v26 _ _ _ p c

/-! ## The folded columns: the first sixteen, and the seventeenth -/

theorem pay5_at (v0 : FVec Ideal S2048x512 .f32) (v9 : FVec Ideal S512x17 .f32) (v12 : FVec Ideal S1x17 .f32)
    (p : Fin 2048) (k : Fin 16) :
    k0_pay5 (F := Ideal) v0 v9 v12 (ix2 p k) = k0_pay2 (F := Ideal) v0 v9 v12 (ix2 p (sumCol k)) :=
  Cert.Lib.SliceAt.slice2_apply ![0, 0] (k0_pay2 (F := Ideal) v0 v9 v12) slices_S2048x17_o0_0_S2048x16 p k p (sumCol k)
    (by show p.val = 0 + p.val; omega) (by show k.val = 0 + k.val; omega)

theorem pay6_at (v1 : FVec Ideal S2048x512 .f32) (v23 : FVec Ideal S512x17 .f32) (v26 : FVec Ideal S1x17 .f32)
    (p : Fin 2048) (k : Fin 16) :
    k0_pay6 (F := Ideal) v1 v23 v26 (ix2 p k) = k0_pay4 (F := Ideal) v1 v23 v26 (ix2 p (sumCol k)) :=
  Cert.Lib.SliceAt.slice2_apply ![0, 0] (k0_pay4 (F := Ideal) v1 v23 v26) slices_S2048x17_o0_0_S2048x16 p k p (sumCol k)
    (by show p.val = 0 + p.val; omega) (by show k.val = 0 + k.val; omega)

theorem pay7_at (v0 v1 : FVec Ideal S2048x512 .f32) (v9 : FVec Ideal S512x17 .f32) (v12 : FVec Ideal S1x17 .f32)
    (v23 : FVec Ideal S512x17 .f32) (v26 : FVec Ideal S1x17 .f32) (p : Fin 2048) (u : Fin 1) :
    k0_pay7 (F := Ideal) v0 v1 v9 v12 v23 v26 (ix2 p u)
      = k0_pay2 (F := Ideal) v0 v9 v12 (ix2 p extraCol) + k0_pay4 (F := Ideal) v1 v23 v26 (ix2 p extraCol) := by
  have hu : u.val = 0 := by omega
  show extractStridedSlice S2048x1 ![0, 16] (k0_pay2 (F := Ideal) v0 v9 v12) slices_S2048x17_o0_16_S2048x1 (ix2 p u)
      + extractStridedSlice S2048x1 ![0, 16] (k0_pay4 (F := Ideal) v1 v23 v26) slices_S2048x17_o0_16_S2048x1 (ix2 p u) = _
  rw [Cert.Lib.SliceAt.slice2_apply ![0, 16] (k0_pay2 (F := Ideal) v0 v9 v12) slices_S2048x17_o0_16_S2048x1 p u p extraCol
        (by show p.val = 0 + p.val; omega) (by show 16 = 16 + u.val; omega),
      Cert.Lib.SliceAt.slice2_apply ![0, 16] (k0_pay4 (F := Ideal) v1 v23 v26) slices_S2048x17_o0_16_S2048x1 p u p extraCol
        (by show p.val = 0 + p.val; omega) (by show 16 = 16 + u.val; omega)]

/-! ## The interaction sum: a lane sum of a product, stood up as a column -/

/-- The sum along the sixteen lanes, from the zero accumulator, of the product of two 16-column arrays, read at
    row p of the one-column result: `Σ_k a(p, k) · b(p, k)`. -/
theorem laneSum_at (a b : FVec Ideal S2048x16 .f32) (h : S2048x16.Reduces [1] S2048)
    (hφ : FKind.Formats .f32) (hacc : (0x00000000#32 : BitVec 32) = FKind.add.neutral .f32 hφ)
    (hc : S2048.ShapeCasts S2048x1) (p : Fin 2048) (u : Fin 1) :
    shapeCast S2048x1 (multiReduction .add [1] S2048 (mulf a b) 0x00000000#32 h hφ hacc) hc (ix2 p u)
      = ∑ k : Fin 16, a (ix2 p k) * b (ix2 p k) := by
  refine (Cert.ColumnLayout.shapeCast_a_a1_apply _ hc p u).trans ?_
  refine (Ideal.multiReduction_add_single (mulf a b) 0x00000000#32 h hφ hacc (ix1 p)).trans ?_
  refine Finset.sum_congr rfl fun k _ => ?_
  have e : h.lift (ix1 p) k = ix2 p k := funext fun x => Fin.ext (by
    match x with
    | ⟨0, _⟩ => rfl
    | ⟨1, _⟩ => rfl)
  rw [e]
  rfl

end Cert.TowerFM.Payload

end
-- ==== Proof.KerPayloadB.lean ====
/-
  The second half of the kernel body read at one row, and the whole body as the second arrangement of the row.

  The second half takes the two towers' 256 main outputs, the two 16-column slices, the sum of the additive columns
  and the perceptron's weights. Its first layer is two 256-term products into zero accumulators, added, plus a bias
  row; each clamp is a maximum against a splat of the word of +0, which the ideal reading turns into max(·, 0); the
  narrowing format changes between the layers are the identity on the extended reals; the second and third layers are
  one product plus a bias row each. So at row p the result is the perceptron's tail on the first layer's
  pre-activations, plus the additive term at p, plus the lane sum Σ_k a(p, k) · b(p, k) of the two slices.

  Substituting the first half's readings (each tower product at (p, c) is Σ_k x(p, k) · W(k, c) + b(0, c); a slice
  reads the folded product at the same column; the additive term is the sum of the two seventeenth columns) gives the
  second arrangement of the row function, over the rows of the two feature blocks and the weight arrays as they are.
-/
import proofs.«161281_j72189810311759_2_alg».proof.Proof.KerPayloadA

open scoped BigOperators

noncomputable section

namespace Cert.TowerFM.Payload

open Cert.KernelIdeal Cert.KernelIdeal.Gen Idealize.ShloMosaic Idealize.ShloMosaic.ValueIdx Cert.Lib.PlainDot Cert.TowerFM

/-- A maximum against a splat of the word of +0, then a narrowing format change, at an index: the clamp at zero. -/
theorem clamp_at {s : Shape} {ψ : FTy} (a : FVec Ideal s .f32) (h : ψ.bits < FTy.f32.bits) (i : s.Idx) :
    (truncf ψ (maximumf a (broadcast s (Scalar.ofBits (F := Ideal) .f32 0x00000000#32))) h : FVec Ideal s ψ) i
      = relu (a i) := by
  show max (a i) (Ideal.ofBits .f32 0x00000000#32) = relu (a i)
  rw [Ideal.ofBits_zero_f32]
  rfl

/-- Two products into zero accumulators, added, plus a bias row, at (p, c):
    (Σ_k l₁(p, k) · w₁(k, c) + Σ_k l₂(p, k) · w₂(k, c)) + b(0, c). -/
theorem dense2_at {R K C : ℕ} {φ₁ φ₂ : FTy} {d : DotDims (Sh2 R K) (Sh2 K C) (Sh2 R C)} (hd : Reads d)
    (prec : Option ContractPrecision) (l₁ l₂ : FVec Ideal (Sh2 R K) φ₁) (w₁ w₂ : FVec Ideal (Sh2 K C) φ₂)
    (b : FVec Ideal (Sh2 1 C) .f32) (hw₁ hw₂ : (Sh2 K C).ShapeCasts (Sh2 K C))
    (hb : (Sh2 1 C).ShapeCasts (Sh2 1 C)) (hbr : (Sh2 1 C).Broadcasts (Sh2 R C)) (p : Fin R) (c : Fin C) :
    addf (addf (matmul d prec l₁ (shapeCast (Sh2 K C) w₁ hw₁) (constant (F := Ideal) (Sh2 R C) .f32 0x00000000#32))
          (matmul d prec l₂ (shapeCast (Sh2 K C) w₂ hw₂) (constant (F := Ideal) (Sh2 R C) .f32 0x00000000#32)))
        (broadcastTo (Sh2 R C) (shapeCast (Sh2 1 C) b hb) hbr) (ix2 p c)
      = ((∑ k : Fin K, l₁ (ix2 p k) * w₁ (ix2 k c)) + (∑ k : Fin K, l₂ (ix2 p k) * w₂ (ix2 k c)))
          + b (ix2 (0 : Fin 1) c) := by
  rw [shapeCast_self, shapeCast_self, shapeCast_self, addf_apply, addf_apply, broadcastTo_1b_ab_apply]
  exact congrArg (· + b (ix2 (0 : Fin 1) c))
    (congrArg₂ (· + ·) (matmul_zero_apply hd prec l₁ w₁ p c) (matmul_zero_apply hd prec l₂ w₂ p c))

/-- The second half of the body at row p: the perceptron's tail on the split first layer, plus the additive term,
    plus the lane sum of the two slices. -/
theorem pay8_at (v8 v22 : FVec Ideal S2048x256 .f32) (v30 v32 : FVec Ideal S2048x16 .f32) (v34 : FVec Ideal S2048x1 .f32)
    (v40 v43 : FVec Ideal S256x256 .bf16) (v47 : FVec Ideal S1x256 .f32) (v54 : FVec Ideal S256x128 .bf16)
    (v57 : FVec Ideal S1x128 .f32) (v64 : FVec Ideal S128x1 .bf16) (v67 : FVec Ideal S1x1 .f32) (p : Fin 2048) (u : Fin 1) :
    k0_pay8 (F := Ideal) v8 v22 v30 v32 v34 v40 v43 v47 v54 v57 v64 v67 (ix2 p u)
      = (tail (fun j => ((∑ c : Fin 256, v8 (ix2 p c) * v40 (ix2 c j)) + (∑ c : Fin 256, v22 (ix2 p c) * v43 (ix2 c j))) + row0 v47 j)
            (mat v54) (row0 v57) (mat v64) (row0 v67) + v34 (ix2 p u))
        + ∑ k : Fin 16, v30 (ix2 p k) * v32 (ix2 p k) := by
  obtain rfl : u = 0 := Subsingleton.elim _ _
  unfold k0_pay8
  dsimp only
  refine (addf_apply _ _ _).trans ?_
  refine congrArg₂ (· + ·) ?_ (laneSum_at v30 v32 _ _ _ _ p 0)
  refine (addf_apply _ _ _).trans ?_
  refine congrArg (· + v34 (ix2 p (0 : Fin 1))) ?_
  refine (dense_at r128x1 none _ v64 v67 _ _ _ p 0).trans ?_
  unfold tail lin
  refine congrArg (· + row0 v67 0) (Finset.sum_congr rfl fun k _ => congrArg (· * mat v64 k 0) ?_)
  refine (clamp_at _ _ _).trans (congrArg relu ?_)
  refine (dense_at r256x128 none _ v54 v57 _ _ _ p k).trans ?_
  refine congrArg (· + row0 v57 k) (Finset.sum_congr rfl fun j _ => congrArg (· * mat v54 j k) ?_)
  refine (clamp_at _ _ _).trans (congrArg relu ?_)
  exact dense2_at r256x256 none _ _ v40 v43 v47 _ _ _ _ p j

/-- The whole body at row p is the second arrangement of the row function, over row p of the two feature blocks and
    the weight arrays. -/
theorem body_at (x0 x1 : FVec Ideal S2048x512 .f32) (x2 : FVec Ideal S512x256 .f32) (x3 : FVec Ideal S512x17 .f32)
    (x4 : FVec Ideal S1x256 .f32) (x5 : FVec Ideal S1x17 .f32) (x6 : FVec Ideal S512x256 .f32) (x7 : FVec Ideal S512x17 .f32)
    (x8 : FVec Ideal S1x256 .f32) (x9 : FVec Ideal S1x17 .f32) (x10 x11 : FVec Ideal S256x256 .bf16) (x12 : FVec Ideal S1x256 .f32)
    (x13 : FVec Ideal S256x128 .bf16) (x14 : FVec Ideal S1x128 .f32) (x15 : FVec Ideal S128x1 .bf16) (x16 : FVec Ideal S1x1 .f32)
    (p : Fin 2048) (u : Fin 1) :
    k0_pay8 (F := Ideal) (k0_pay1 x0 x2 x4) (k0_pay3 x1 x6 x8) (k0_pay5 x0 x3 x5) (k0_pay6 x1 x7 x9) (k0_pay7 x0 x1 x3 x5 x7 x9)
        x10 x11 x12 x13 x14 x15 x16 (ix2 p u)
      = kerRowGen (rowOf x0 p) (rowOf x1 p) (mat x2) (mat x3) (row0 x4) (row0 x5) (mat x6) (mat x7) (row0 x8) (row0 x9)
          (mat x10) (mat x11) (row0 x12) (mat x13) (row0 x14) (mat x15) (row0 x16) := by
  have h1 : ∀ c : Fin 256, k0_pay1 (F := Ideal) x0 x2 x4 (ix2 p c) = lin (rowOf x0 p) (mat x2) (row0 x4) c :=
    fun c => pay1_at x0 x2 x4 p c
  have h3 : ∀ c : Fin 256, k0_pay3 (F := Ideal) x1 x6 x8 (ix2 p c) = lin (rowOf x1 p) (mat x6) (row0 x8) c :=
    fun c => pay3_at x1 x6 x8 p c
  have h2 : ∀ c : Fin 17, k0_pay2 (F := Ideal) x0 x3 x5 (ix2 p c) = lin (rowOf x0 p) (mat x3) (row0 x5) c :=
    fun c => pay2_at x0 x3 x5 p c
  have h4 : ∀ c : Fin 17, k0_pay4 (F := Ideal) x1 x7 x9 (ix2 p c) = lin (rowOf x1 p) (mat x7) (row0 x9) c :=
    fun c => pay4_at x1 x7 x9 p c
  have h5 : ∀ k : Fin 16, k0_pay5 (F := Ideal) x0 x3 x5 (ix2 p k) = lin (rowOf x0 p) (mat x3) (row0 x5) (sumCol k) :=
    fun k => (pay5_at x0 x3 x5 p k).trans (h2 (sumCol k))
  have h6 : ∀ k : Fin 16, k0_pay6 (F := Ideal) x1 x7 x9 (ix2 p k) = lin (rowOf x1 p) (mat x7) (row0 x9) (sumCol k) :=
    fun k => (pay6_at x1 x7 x9 p k).trans (h4 (sumCol k))
  have h7 : k0_pay7 (F := Ideal) x0 x1 x3 x5 x7 x9 (ix2 p u)
      = lin (rowOf x0 p) (mat x3) (row0 x5) extraCol + lin (rowOf x1 p) (mat x7) (row0 x9) extraCol :=
    (pay7_at x0 x1 x3 x5 x7 x9 p u).trans (congrArg₂ (· + ·) (h2 extraCol) (h4 extraCol))
  refine (pay8_at _ _ _ _ _ x10 x11 x12 x13 x14 x15 x16 p u).trans ?_
  unfold kerRowGen
  refine congrArg₂ (· + ·)
    (congrArg₂ (· + ·)
      (congrArg (fun pre => tail pre (mat x13) (row0 x14) (mat x15) (row0 x16)) (funext fun j => ?_)) h7)
    (Finset.sum_congr rfl fun k _ => congrArg₂ (· * ·) (h5 k) (h6 k))
  exact congrArg (· + row0 x12 j)
    (congrArg₂ (· + ·)
      (Finset.sum_congr rfl fun c _ => congrArg (· * mat x10 c j) (h1 c))
      (Finset.sum_congr rfl fun c _ => congrArg (· * mat x11 c j) (h3 c)))

end Cert.TowerFM.Payload

end
-- ==== Proof.HostFold.lean ====
/-
  A tower's weights and bias folded over the sixteen embeddings, as the host program lays them out, read at an index.

  From a [512, 257] weight array W the host forms a [512, 17] array: its first sixteen columns are the sums, over the
  sixteen embeddings i, of column 16 i + k (the first 256 columns reshaped to [512, 16, 16] and summed along the
  middle axis, starting from zero), and its seventeenth column is column 256 of W. The bias vector is treated the same
  way, then laid out as a one-row array. Read at (r, k) these are `foldW` and `foldB` of RowSpec.lean. The initial value
  of each sum is the zero word, which is the extended real 0, so it drops out of the sum.
-/
import proofs.«161281_j72189810311759_2_alg».proof.Proof.ArraySpec
import proofs.«161281_j72189810311759_2_alg».proof.Proof.LibSliceAt
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.TowerFM.HostFold

open Idealize.ShloMosaic Idealize.ShloMosaic.ValueIdx Cert.TowerFM

abbrev Sh3 (a b c : ℕ) : Shape := ⟨3, ![a, b, c]⟩
abbrev Sh0 : Shape := ⟨0, ![]⟩

/-- The sum, from the zero word, over the middle axis of the first 256 columns seen as sixteen groups of sixteen:
    at (r, k) it is `Σ_i W(r, 16 i + k)`. -/
theorem groupSum_at (W : FVec Ideal (Sh2 512 257) .f32) (hs : (Sh2 512 257).Slices ![0, 0] (Sh2 512 256))
    (hc : (Sh2 512 256).ShapeCasts (Sh3 512 16 16)) (hr : (Sh3 512 16 16).ReducesTo [1] (Sh2 512 16))
    (hu : 0 < Sh0.numel) (r : Fin 512) (k : Fin 16) :
    Host.reduceAdd (shapeCast (Sh3 512 16 16) (extractStridedSlice (Sh2 512 256) ![0, 0] W hs) hc)
        (constant (F := Ideal) Sh0 .f32 0x00000000#32) hr hu (ix2 r k)
      = ∑ i : Fin 16, W (ix2 r (emb i k)) := by
  have hR : (Sh3 512 16 16).Reduces [1] (Sh2 512 16) := by decide
  rw [hostReduceAdd_apply, Ideal.hostReduceAdd_single hr hR, constant_apply, Ideal.ofBits_zero_f32, zero_add]
  refine Finset.sum_congr rfl fun (i : Fin 16) _ => ?_
  have hc256 : 16 * i.val + k.val < 256 := by have := i.isLt; have := k.isLt; omega
  have e : hR.lift (ix2 r k) i = ix3 r i k := funext fun x => Fin.ext (by
    match x with
    | ⟨0, _⟩ => rfl
    | ⟨1, _⟩ => rfl
    | ⟨2, _⟩ => rfl)
  rw [e]
  refine (shapeCast_apply _ hc (ix3 r i k) (ix2 r (⟨16 * i.val + k.val, hc256⟩ : Fin 256)) ?_).trans ?_
  · rw [Shape.rowMajor_val_two, Shape.rowMajor_val_three]
    show r.val * 256 + (16 * i.val + k.val) = (r.val * 16 + i.val) * 16 + k.val
    omega
  · exact Cert.Lib.SliceAt.slice2_apply ![0, 0] W hs r (⟨16 * i.val + k.val, hc256⟩ : Fin 256) r (emb i k)
      (by show r.val = 0 + r.val; omega) (by show 16 * i.val + k.val = 0 + (16 * i.val + k.val); omega)

/-- The folded weights at (r, k): the group sum in the first sixteen columns, column 256 in the seventeenth. -/
theorem foldedW_at (W : FVec Ideal (Sh2 512 257) .f32) (hs : (Sh2 512 257).Slices ![0, 0] (Sh2 512 256))
    (hc : (Sh2 512 256).ShapeCasts (Sh3 512 16 16)) (hr : (Sh3 512 16 16).ReducesTo [1] (Sh2 512 16))
    (hu : 0 < Sh0.numel) (hs1 : (Sh2 512 257).Slices ![0, 256] (Sh2 512 1))
    (hcat : Shape.Concatenates [Sh2 512 16, Sh2 512 1] (Sh2 512 17) 1) (r : Fin 512) (k : Fin 17) :
    concatenate (Sh2 512 17) 1
        [⟨Sh2 512 16, Host.reduceAdd (shapeCast (Sh3 512 16 16) (extractStridedSlice (Sh2 512 256) ![0, 0] W hs) hc)
            (constant (F := Ideal) Sh0 .f32 0x00000000#32) hr hu⟩,
         ⟨Sh2 512 1, extractStridedSlice (Sh2 512 1) ![0, 256] W hs1⟩] hcat (ix2 r k)
      = foldW (mat W) r k := by
  unfold foldW
  by_cases hk : k.val < 16
  · rw [dif_pos hk]
    refine (concatenate_pair_apply_left (t := Sh2 512 17) (s₁ := Sh2 512 16) (s₂ := Sh2 512 1) (1 : Fin 2) _ _ hcat (ix2 r k) rfl (ix2 r (⟨k.val, hk⟩ : Fin 16)) fun b => ?_).trans ?_
    · match b with
      | ⟨0, _⟩ => rfl
      | ⟨1, _⟩ => rfl
    · exact groupSum_at W hs hc hr hu r ⟨k.val, hk⟩
  · rw [dif_neg hk]
    have hk16 : k.val = 16 := by have := k.isLt; omega
    refine (concatenate_pair_apply_right (t := Sh2 512 17) (s₁ := Sh2 512 16) (s₂ := Sh2 512 1) (1 : Fin 2) _ _ hcat (ix2 r k) rfl rfl (ix2 r (0 : Fin 1)) (fun b hb => ?_) ?_).trans ?_
    · match b with
      | ⟨0, _⟩ => rfl
      | ⟨1, _⟩ => exact absurd rfl hb
    · show 0 + 16 = k.val
      omega
    · exact Cert.Lib.SliceAt.slice2_apply ![0, 256] W hs1 r (0 : Fin 1) r addCol (by show r.val = 0 + r.val; omega)
        (by show 256 = 256 + 0; rfl)

/-- The same sum for the bias: the first 256 entries as a 16 × 16 array summed down its rows; at k it is
    `Σ_i b(16 i + k)`. -/
theorem groupSumB_at (b : FVec Ideal (Sh1 257) .f32) (hs : (Sh1 257).Slices ![0] (Sh1 256))
    (hc : (Sh1 256).ShapeCasts (Sh2 16 16)) (hr : (Sh2 16 16).ReducesTo [0] (Sh1 16)) (hu : 0 < Sh0.numel) (k : Fin 16) :
    Host.reduceAdd (shapeCast (Sh2 16 16) (extractStridedSlice (Sh1 256) ![0] b hs) hc)
        (constant (F := Ideal) Sh0 .f32 0x00000000#32) hr hu (ix1 k)
      = ∑ i : Fin 16, b (ix1 (emb i k)) := by
  have hR : (Sh2 16 16).Reduces [0] (Sh1 16) := by decide
  rw [hostReduceAdd_apply, Ideal.hostReduceAdd_single hr hR, constant_apply, Ideal.ofBits_zero_f32, zero_add]
  refine Finset.sum_congr rfl fun (i : Fin 16) _ => ?_
  have hc256 : 16 * i.val + k.val < 256 := by have := i.isLt; have := k.isLt; omega
  have e : hR.lift (ix1 k) i = ix2 i k := funext fun x => Fin.ext (by
    match x with
    | ⟨0, _⟩ => rfl
    | ⟨1, _⟩ => rfl)
  rw [e]
  refine (shapeCast_apply _ hc (ix2 i k) (ix1 (⟨16 * i.val + k.val, hc256⟩ : Fin 256)) ?_).trans ?_
  · rw [Shape.rowMajor_val_one, Shape.rowMajor_val_two]
    show 16 * i.val + k.val = i.val * 16 + k.val
    omega
  · exact extractStridedSlice_apply ![0] b hs (ix1 (⟨16 * i.val + k.val, hc256⟩ : Fin 256)) (ix1 (emb i k)) fun a => by
      match a with
      | ⟨0, _⟩ => show 16 * i.val + k.val = 0 + (16 * i.val + k.val); omega

/-- The folded bias laid out as one row, at (0, k). -/
theorem foldedB_at (b : FVec Ideal (Sh1 257) .f32) (hs : (Sh1 257).Slices ![0] (Sh1 256))
    (hc : (Sh1 256).ShapeCasts (Sh2 16 16)) (hr : (Sh2 16 16).ReducesTo [0] (Sh1 16)) (hu : 0 < Sh0.numel)
    (hs1 : (Sh1 257).Slices ![256] (Sh1 1)) (hcat : Shape.Concatenates [Sh1 16, Sh1 1] (Sh1 17) 0)
    (hrow : (Sh1 17).ShapeCasts (Sh2 1 17)) (u : Fin 1) (k : Fin 17) :
    shapeCast (Sh2 1 17)
        (concatenate (Sh1 17) 0
          [⟨Sh1 16, Host.reduceAdd (shapeCast (Sh2 16 16) (extractStridedSlice (Sh1 256) ![0] b hs) hc)
              (constant (F := Ideal) Sh0 .f32 0x00000000#32) hr hu⟩,
           ⟨Sh1 1, extractStridedSlice (Sh1 1) ![256] b hs1⟩] hcat) hrow (ix2 u k)
      = foldB (vec b) k := by
  rw [shapeCast_a_1a_apply]
  unfold foldB
  by_cases hk : k.val < 16
  · rw [dif_pos hk]
    refine (concatenate_pair_apply_left (t := Sh1 17) (s₁ := Sh1 16) (s₂ := Sh1 1) (0 : Fin 1) _ _ hcat (ix1 k) rfl (ix1 (⟨k.val, hk⟩ : Fin 16)) fun b' => ?_).trans ?_
    · match b' with
      | ⟨0, _⟩ => rfl
    · exact groupSumB_at b hs hc hr hu ⟨k.val, hk⟩
  · rw [dif_neg hk]
    have hk16 : k.val = 16 := by have := k.isLt; omega
    refine (concatenate_pair_apply_right (t := Sh1 17) (s₁ := Sh1 16) (s₂ := Sh1 1) (0 : Fin 1) _ _ hcat (ix1 k) rfl rfl (ix1 (0 : Fin 1)) (fun b' hb => ?_) ?_).trans ?_
    · match b' with
      | ⟨0, _⟩ => exact absurd rfl hb
    · show 0 + 16 = k.val
      omega
    · exact extractStridedSlice_apply ![256] b hs1 (ix1 (0 : Fin 1)) (ix1 addCol) fun a => by
        match a with
        | ⟨0, _⟩ => show 256 = 256 + 0; rfl

end Cert.TowerFM.HostFold

end
-- ==== Proof.EntryArrays.lean ====
/-
  The arrays the program's host operations have prepared when its one region is entered, read at an index as entries
  of the twelve argument arrays.

  Each tower's weights are split into the first 256 columns and the folded seventeen columns (the sums over the sixteen
  embeddings, coordinate by coordinate, and the additive column); its bias likewise, each laid out as one row. The first
  perceptron layer's weights are split into the movie half and the user half; the conversions of the perceptron's
  weights to the narrower format keep every value; the remaining biases are laid out as one row each.
-/
import proofs.«161281_j72189810311759_2_alg».proof.Proof.Gen.KernelIdeal.Frame
import proofs.«161281_j72189810311759_2_alg».proof.Proof.HostFold
import proofs.«161281_j72189810311759_2_alg».proof.Proof.LibSliceAt
import proofs.«161281_j72189810311759_2_alg».proof.Proof.ArraySpec
import Idealize.ShloMosaic.Lib.StableHlo.Run
import Idealize.ShloMosaic.Lib.ValueIdx
import Idealize.ShloMosaic.Lib.ValueLayout
import Idealize.ShloMosaic.Lib.Pipeline.Value

noncomputable section

namespace Cert.TowerFM.Entry

open Cert.KernelIdeal Cert.KernelIdeal.Gen Idealize.ShloMosaic Idealize.ShloMosaic.TcCoe Idealize.SL.Sem
  Idealize.ShloMosaic.StableHlo Idealize.ShloMosaic.ValueIdx Cert.TowerFM

variable (m : (ℓ : Loc nD τ sig) → Buf (Elt Ideal) ℓ) (c : Dev nD)

-- The argument arrays as functions of an index.
set_option quotPrecheck false
local notation "A2" => (m ((c : Thread nD τ).loc main_arg2) : S512x257.Idx → EReal)
local notation "A3" => (m ((c : Thread nD τ).loc main_arg3) : S257.Idx → EReal)
local notation "A4" => (m ((c : Thread nD τ).loc main_arg4) : S512x257.Idx → EReal)
local notation "A5" => (m ((c : Thread nD τ).loc main_arg5) : S257.Idx → EReal)
local notation "A6" => (m ((c : Thread nD τ).loc main_arg6) : S512x256.Idx → EReal)
local notation "A7" => (m ((c : Thread nD τ).loc main_arg7) : S256.Idx → EReal)
local notation "A8" => (m ((c : Thread nD τ).loc main_arg8) : S256x128.Idx → EReal)
local notation "A9" => (m ((c : Thread nD τ).loc main_arg9) : S128.Idx → EReal)
local notation "A10" => (m ((c : Thread nD τ).loc main_arg10) : S128x1.Idx → EReal)
local notation "A11" => (m ((c : Thread nD τ).loc main_arg11) : S1.Idx → EReal)

/-- The movie tower's main weights: the first 256 columns. -/
theorem v0_at (r : Fin 512) (j : Fin 256) :
    (V m c main_v0 : S512x256.Idx → EReal) (ix2 r j) = A2 (ix2 r (mainCol j)) := by
  have e : (V m c main_v0 : S512x256.Idx → EReal)
      = extractStridedSlice S512x256 ![0, 0] A2 slices_S512x257_S512x256_0_0 := by
    dsimp only [V, hostOps0]; after_results_simp <;> rfl
  rw [e]
  exact Cert.Lib.SliceAt.slice2_apply ![0, 0] _ _ r j r (mainCol j) (by show r.val = 0 + r.val; omega)
    (by show j.val = 0 + j.val; omega)

/-- The movie tower's folded weights. -/
theorem v8_at (r : Fin 512) (k : Fin 17) :
    (V m c main_v8 : S512x17.Idx → EReal) (ix2 r k) = foldW (mat A2) r k := by
  have e : (V m c main_v8 : S512x17.Idx → EReal)
      = concatenate S512x17 1
          [⟨S512x16, Host.reduceAdd
              (shapeCast S512x16x16 (extractStridedSlice S512x256 ![0, 0] A2 slices_S512x257_S512x256_0_0)
                shapeCasts_S512x256_S512x16x16)
              (constant (F := Ideal) S_ .f32 0x00000000#32) reducesTo_S512x16x16_S512x16_d1 h_S_⟩,
           ⟨S512x1, extractStridedSlice S512x1 ![0, 256] A2 slices_S512x257_S512x1_0_256⟩]
          concatenates_S512x16_S512x1_S512x17_d1 := by
    dsimp only [V, hostOps0]; after_results_simp <;> rfl
  rw [e]
  exact Cert.TowerFM.HostFold.foldedW_at A2 _ _ _ _ _ _ r k

/-- The movie tower's main bias, as one row. -/
theorem v26_at (u : Fin 1) (j : Fin 256) :
    (V m c main_v26 : S1x256.Idx → EReal) (ix2 u j) = A3 (ix1 (mainCol j)) := by
  have e : (V m c main_v26 : S1x256.Idx → EReal)
      = shapeCast S1x256 (extractStridedSlice S256 ![0] A3 slices_S257_S256_0) shapeCasts_S256_S1x256 := by
    dsimp only [V, hostOps0]; after_results_simp <;> rfl
  rw [e, shapeCast_a_1a_apply]
  exact extractStridedSlice_apply ![0] _ _ (ix1 j) (ix1 (mainCol j)) fun a => by
    match a with
    | ⟨0, _⟩ => show j.val = 0 + j.val; omega

/-- The movie tower's folded bias, as one row. -/
theorem v27_at (u : Fin 1) (k : Fin 17) :
    (V m c main_v27 : S1x17.Idx → EReal) (ix2 u k) = foldB (vec A3) k := by
  have e : (V m c main_v27 : S1x17.Idx → EReal)
      = shapeCast S1x17
          (concatenate S17 0
            [⟨S16, Host.reduceAdd
                (shapeCast S16x16 (extractStridedSlice S256 ![0] A3 slices_S257_S256_0) shapeCasts_S256_S16x16)
                (constant (F := Ideal) S_ .f32 0x00000000#32) reducesTo_S16x16_S16_d0 h_S_⟩,
             ⟨S1, extractStridedSlice S1 ![256] A3 slices_S257_S1_256⟩]
            concatenates_S16_S1_S17_d0)
          shapeCasts_S17_S1x17 := by
    dsimp only [V, hostOps0]; after_results_simp <;> rfl
  rw [e]
  exact Cert.TowerFM.HostFold.foldedB_at A3 _ _ _ _ _ _ _ u k

/-- The user tower's main weights: the first 256 columns. -/
theorem v10_at (r : Fin 512) (j : Fin 256) :
    (V m c main_v10 : S512x256.Idx → EReal) (ix2 r j) = A4 (ix2 r (mainCol j)) := by
  have e : (V m c main_v10 : S512x256.Idx → EReal)
      = extractStridedSlice S512x256 ![0, 0] A4 slices_S512x257_S512x256_0_0 := by
    dsimp only [V, hostOps0]; after_results_simp <;> rfl
  rw [e]
  exact Cert.Lib.SliceAt.slice2_apply ![0, 0] _ _ r j r (mainCol j) (by show r.val = 0 + r.val; omega)
    (by show j.val = 0 + j.val; omega)

/-- The user tower's folded weights. -/
theorem v18_at (r : Fin 512) (k : Fin 17) :
    (V m c main_v18 : S512x17.Idx → EReal) (ix2 r k) = foldW (mat A4) r k := by
  have e : (V m c main_v18 : S512x17.Idx → EReal)
      = concatenate S512x17 1
          [⟨S512x16, Host.reduceAdd
              (shapeCast S512x16x16 (extractStridedSlice S512x256 ![0, 0] A4 slices_S512x257_S512x256_0_0)
                shapeCasts_S512x256_S512x16x16)
              (constant (F := Ideal) S_ .f32 0x00000000#32) reducesTo_S512x16x16_S512x16_d1 h_S_⟩,
           ⟨S512x1, extractStridedSlice S512x1 ![0, 256] A4 slices_S512x257_S512x1_0_256⟩]
          concatenates_S512x16_S512x1_S512x17_d1 := by
    dsimp only [V, hostOps0]; after_results_simp <;> rfl
  rw [e]
  exact Cert.TowerFM.HostFold.foldedW_at A4 _ _ _ _ _ _ r k

/-- The user tower's main bias, as one row. -/
theorem v28_at (u : Fin 1) (j : Fin 256) :
    (V m c main_v28 : S1x256.Idx → EReal) (ix2 u j) = A5 (ix1 (mainCol j)) := by
  have e : (V m c main_v28 : S1x256.Idx → EReal)
      = shapeCast S1x256 (extractStridedSlice S256 ![0] A5 slices_S257_S256_0) shapeCasts_S256_S1x256 := by
    dsimp only [V, hostOps0]; after_results_simp <;> rfl
  rw [e, shapeCast_a_1a_apply]
  exact extractStridedSlice_apply ![0] _ _ (ix1 j) (ix1 (mainCol j)) fun a => by
    match a with
    | ⟨0, _⟩ => show j.val = 0 + j.val; omega

/-- The user tower's folded bias, as one row. -/
theorem v29_at (u : Fin 1) (k : Fin 17) :
    (V m c main_v29 : S1x17.Idx → EReal) (ix2 u k) = foldB (vec A5) k := by
  have e : (V m c main_v29 : S1x17.Idx → EReal)
      = shapeCast S1x17
          (concatenate S17 0
            [⟨S16, Host.reduceAdd
                (shapeCast S16x16 (extractStridedSlice S256 ![0] A5 slices_S257_S256_0) shapeCasts_S256_S16x16)
                (constant (F := Ideal) S_ .f32 0x00000000#32) reducesTo_S16x16_S16_d0 h_S_⟩,
             ⟨S1, extractStridedSlice S1 ![256] A5 slices_S257_S1_256⟩]
            concatenates_S16_S1_S17_d0)
          shapeCasts_S17_S1x17 := by
    dsimp only [V, hostOps0]; after_results_simp <;> rfl
  rw [e]
  exact Cert.TowerFM.HostFold.foldedB_at A5 _ _ _ _ _ _ _ u k

/-- The first perceptron layer's weights, movie half: rows 0 to 255 (the conversion keeps every value). -/
theorem v21_at (a j : Fin 256) :
    (V m c main_v21 : S256x256.Idx → EReal) (ix2 a j) = A6 (ix2 (lowRow a) j) := by
  have e : (V m c main_v21 : S256x256.Idx → EReal)
      = truncf (F := Ideal) .bf16 (extractStridedSlice S256x256 ![0, 0] A6 slices_S512x256_S256x256_0_0) bitsLt_bf16_f32 := by
    dsimp only [V, hostOps0]; after_results_simp <;> rfl
  rw [e, truncf_apply]
  exact Cert.Lib.SliceAt.slice2_apply ![0, 0] _ _ a j (lowRow a) j (by show a.val = 0 + a.val; omega)
    (by show j.val = 0 + j.val; omega)

/-- The first perceptron layer's weights, user half: rows 256 to 511. -/
theorem v23_at (a j : Fin 256) :
    (V m c main_v23 : S256x256.Idx → EReal) (ix2 a j) = A6 (ix2 (highRow a) j) := by
  have e : (V m c main_v23 : S256x256.Idx → EReal)
      = truncf (F := Ideal) .bf16 (extractStridedSlice S256x256 ![256, 0] A6 slices_S512x256_S256x256_256_0) bitsLt_bf16_f32 := by
    dsimp only [V, hostOps0]; after_results_simp <;> rfl
  rw [e, truncf_apply]
  exact Cert.Lib.SliceAt.slice2_apply ![256, 0] _ _ a j (highRow a) j (by show 256 + a.val = 256 + a.val; rfl)
    (by show j.val = 0 + j.val; omega)

/-- The first perceptron layer's bias, as one row. -/
theorem v30_at (u : Fin 1) (j : Fin 256) :
    (V m c main_v30 : S1x256.Idx → EReal) (ix2 u j) = A7 (ix1 j) := by
  have e : (V m c main_v30 : S1x256.Idx → EReal) = shapeCast S1x256 A7 shapeCasts_S256_S1x256 := by
    dsimp only [V, hostOps0]; after_results_simp <;> rfl
  rw [e, shapeCast_a_1a_apply]

/-- The second perceptron layer's weights. -/
theorem v24_at (j : Fin 256) (k : Fin 128) :
    (V m c main_v24 : S256x128.Idx → EReal) (ix2 j k) = A8 (ix2 j k) := by
  have e : (V m c main_v24 : S256x128.Idx → EReal) = truncf (F := Ideal) .bf16 A8 bitsLt_bf16_f32 := by
    dsimp only [V, hostOps0]; after_results_simp <;> rfl
  rw [e, truncf_apply]

/-- The second perceptron layer's bias, as one row. -/
theorem v31_at (u : Fin 1) (k : Fin 128) :
    (V m c main_v31 : S1x128.Idx → EReal) (ix2 u k) = A9 (ix1 k) := by
  have e : (V m c main_v31 : S1x128.Idx → EReal) = shapeCast S1x128 A9 shapeCasts_S128_S1x128 := by
    dsimp only [V, hostOps0]; after_results_simp <;> rfl
  rw [e, shapeCast_a_1a_apply]

/-- The third perceptron layer's weights. -/
theorem v25_at (k : Fin 128) (q : Fin 1) :
    (V m c main_v25 : S128x1.Idx → EReal) (ix2 k q) = A10 (ix2 k q) := by
  have e : (V m c main_v25 : S128x1.Idx → EReal) = truncf (F := Ideal) .bf16 A10 bitsLt_bf16_f32 := by
    dsimp only [V, hostOps0]; after_results_simp <;> rfl
  rw [e, truncf_apply]

/-- The third perceptron layer's bias, as a one-entry row. -/
theorem v32_at (u q : Fin 1) :
    (V m c main_v32 : S1x1.Idx → EReal) (ix2 u q) = A11 (ix1 q) := by
  have e : (V m c main_v32 : S1x1.Idx → EReal) = shapeCast S1x1 A11 shapeCasts_S1_S1x1 := by
    dsimp only [V, hostOps0]; after_results_simp <;> rfl
  rw [e, shapeCast_a_1a_apply]

end Cert.TowerFM.Entry

end
-- ==== Proof.BlockReads.lean ====
/-
  Each window's block at a grid point, read at an index, as an entry of the window's array; and which array index an
  index of the output block is.

  The grid has 8 points. The two feature arrays and the output are cut into blocks of 2048 rows, block t holding rows
  2048 t … 2048 t + 2047: a block's coordinate on an axis is (block index) × (block extent) + (coordinate inside the
  block), and the block index is (t, 0). Every other window's block is its whole array at every point (block index
  (0, 0), block extent the array's), so an index of the block is the same index of the array.
-/
import proofs.«161281_j72189810311759_2_alg».proof.Proof.Gen.KernelIdeal.Frame
import proofs.«161281_j72189810311759_2_alg».proof.Proof.ArraySpec
import Idealize.ShloMosaic.Lib.ValueIdx
import Idealize.ShloMosaic.Lib.Pipeline.Value

noncomputable section

namespace Cert.TowerFM.Blocks

open Cert.KernelIdeal Cert.KernelIdeal.Gen Idealize.ShloMosaic Idealize.ShloMosaic.TcCoe Idealize.SL.Sem
open Idealize.ShloMosaic.ValueIdx Cert.TowerFM
open Idealize.ShloMosaic.Pipeline (Dat)

variable (m : (ℓ : Loc nD τ sig) → Buf (Elt Ideal) ℓ) (c : Dev nD)

/-- Row p of block t is row 2048 t + p of the array. -/
def rowAt (t : Fin cfg0.N) (p : Fin 2048) : Fin 16384 :=
  ⟨2048 * t.val + p.val, by have := t.isLt; have h : cfg0.N = 8 := N_0; have := p.isLt; omega⟩

theorem rowAt_val (t : Fin cfg0.N) (p : Fin 2048) : (rowAt t p).val = 2048 * t.val + p.val := rfl

/-! ## The block indices, decided over the grid -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx17 : ∀ t : Fin cfg0.N, win0_17.index t (0 : Fin 2) = t.val ∧ win0_17.index t (1 : Fin 2) = 0 :=
  (by decide +kernel : ∀ t : Fin grid0.N, win0_17.index t (0 : Fin 2) = t.val ∧ win0_17.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem idx15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)
theorem idx16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

/-! ## The row-blocked windows -/

/-- Entry (p, k) of window 0's block at point t is entry (2048 t + p, k) of its array. -/
theorem iblk0_at (t : Fin cfg0.N) (p : Fin 2048) (k : Fin 512) :
    (iblk m c 0 t : Vec Ideal S2048x512 .f32) (ix2 p k) = (V m c main_arg0 : S16384x512.Idx → EReal) (ix2 (rowAt t p) k) := by
  obtain ⟨h0, h1⟩ := idx0 t
  unfold iblk
  rw [View.read_apply]
  show V m c main_arg0 _ = V m c main_arg0 _
  congr 1
  funext a
  apply Fin.ext
  match a with
  | ⟨0, _⟩ => show win0_0.index t 0 * 2048 + 1 * p.val = 2048 * t.val + p.val; rw [h0]; omega
  | ⟨1, _⟩ => show win0_0.index t 1 * 512 + 1 * k.val = k.val; rw [h1]; omega

/-- Entry (p, k) of window 1's block at point t is entry (2048 t + p, k) of its array. -/
theorem iblk1_at (t : Fin cfg0.N) (p : Fin 2048) (k : Fin 512) :
    (iblk m c 1 t : Vec Ideal S2048x512 .f32) (ix2 p k) = (V m c main_arg1 : S16384x512.Idx → EReal) (ix2 (rowAt t p) k) := by
  obtain ⟨h0, h1⟩ := idx1 t
  unfold iblk
  rw [View.read_apply]
  show V m c main_arg1 _ = V m c main_arg1 _
  congr 1
  funext a
  apply Fin.ext
  match a with
  | ⟨0, _⟩ => show win0_1.index t 0 * 2048 + 1 * p.val = 2048 * t.val + p.val; rw [h0]; omega
  | ⟨1, _⟩ => show win0_1.index t 1 * 512 + 1 * k.val = k.val; rw [h1]; omega

/-! ## The whole-array windows -/

/-- Window 2's block at any point is its whole array. -/
theorem iblk2_at (t : Fin cfg0.N) (r : Fin 512) (j : Fin 256) :
    (iblk m c 2 t : Vec Ideal S512x256 .f32) (ix2 r j) = (V m c main_v0 : S512x256.Idx → EReal) (ix2 r j) := by
  obtain ⟨h0, h1⟩ := idx2 t
  unfold iblk
  rw [View.read_apply]
  show V m c main_v0 _ = V m c main_v0 _
  congr 1
  funext a
  apply Fin.ext
  match a with
  | ⟨0, _⟩ => show win0_2.index t 0 * 512 + 1 * r.val = r.val; rw [h0]; omega
  | ⟨1, _⟩ => show win0_2.index t 1 * 256 + 1 * j.val = j.val; rw [h1]; omega

/-- Window 3's block at any point is its whole array. -/
theorem iblk3_at (t : Fin cfg0.N) (r : Fin 512) (j : Fin 17) :
    (iblk m c 3 t : Vec Ideal S512x17 .f32) (ix2 r j) = (V m c main_v8 : S512x17.Idx → EReal) (ix2 r j) := by
  obtain ⟨h0, h1⟩ := idx3 t
  unfold iblk
  rw [View.read_apply]
  show V m c main_v8 _ = V m c main_v8 _
  congr 1
  funext a
  apply Fin.ext
  match a with
  | ⟨0, _⟩ => show win0_3.index t 0 * 512 + 1 * r.val = r.val; rw [h0]; omega
  | ⟨1, _⟩ => show win0_3.index t 1 * 17 + 1 * j.val = j.val; rw [h1]; omega

/-- Window 4's block at any point is its whole array. -/
theorem iblk4_at (t : Fin cfg0.N) (r : Fin 1) (j : Fin 256) :
    (iblk m c 4 t : Vec Ideal S1x256 .f32) (ix2 r j) = (V m c main_v26 : S1x256.Idx → EReal) (ix2 r j) := by
  obtain ⟨h0, h1⟩ := idx4 t
  unfold iblk
  rw [View.read_apply]
  show V m c main_v26 _ = V m c main_v26 _
  congr 1
  funext a
  apply Fin.ext
  match a with
  | ⟨0, _⟩ => show win0_4.index t 0 * 1 + 1 * r.val = r.val; rw [h0]; omega
  | ⟨1, _⟩ => show win0_4.index t 1 * 256 + 1 * j.val = j.val; rw [h1]; omega

/-- Window 5's block at any point is its whole array. -/
theorem iblk5_at (t : Fin cfg0.N) (r : Fin 1) (j : Fin 17) :
    (iblk m c 5 t : Vec Ideal S1x17 .f32) (ix2 r j) = (V m c main_v27 : S1x17.Idx → EReal) (ix2 r j) := by
  obtain ⟨h0, h1⟩ := idx5 t
  unfold iblk
  rw [View.read_apply]
  show V m c main_v27 _ = V m c main_v27 _
  congr 1
  funext a
  apply Fin.ext
  match a with
  | ⟨0, _⟩ => show win0_5.index t 0 * 1 + 1 * r.val = r.val; rw [h0]; omega
  | ⟨1, _⟩ => show win0_5.index t 1 * 17 + 1 * j.val = j.val; rw [h1]; omega

/-- Window 6's block at any point is its whole array. -/
theorem iblk6_at (t : Fin cfg0.N) (r : Fin 512) (j : Fin 256) :
    (iblk m c 6 t : Vec Ideal S512x256 .f32) (ix2 r j) = (V m c main_v10 : S512x256.Idx → EReal) (ix2 r j) := by
  obtain ⟨h0, h1⟩ := idx6 t
  unfold iblk
  rw [View.read_apply]
  show V m c main_v10 _ = V m c main_v10 _
  congr 1
  funext a
  apply Fin.ext
  match a with
  | ⟨0, _⟩ => show win0_6.index t 0 * 512 + 1 * r.val = r.val; rw [h0]; omega
  | ⟨1, _⟩ => show win0_6.index t 1 * 256 + 1 * j.val = j.val; rw [h1]; omega

/-- Window 7's block at any point is its whole array. -/
theorem iblk7_at (t : Fin cfg0.N) (r : Fin 512) (j : Fin 17) :
    (iblk m c 7 t : Vec Ideal S512x17 .f32) (ix2 r j) = (V m c main_v18 : S512x17.Idx → EReal) (ix2 r j) := by
  obtain ⟨h0, h1⟩ := idx7 t
  unfold iblk
  rw [View.read_apply]
  show V m c main_v18 _ = V m c main_v18 _
  congr 1
  funext a
  apply Fin.ext
  match a with
  | ⟨0, _⟩ => show win0_7.index t 0 * 512 + 1 * r.val = r.val; rw [h0]; omega
  | ⟨1, _⟩ => show win0_7.index t 1 * 17 + 1 * j.val = j.val; rw [h1]; omega

/-- Window 8's block at any point is its whole array. -/
theorem iblk8_at (t : Fin cfg0.N) (r : Fin 1) (j : Fin 256) :
    (iblk m c 8 t : Vec Ideal S1x256 .f32) (ix2 r j) = (V m c main_v28 : S1x256.Idx → EReal) (ix2 r j) := by
  obtain ⟨h0, h1⟩ := idx8 t
  unfold iblk
  rw [View.read_apply]
  show V m c main_v28 _ = V m c main_v28 _
  congr 1
  funext a
  apply Fin.ext
  match a with
  | ⟨0, _⟩ => show win0_8.index t 0 * 1 + 1 * r.val = r.val; rw [h0]; omega
  | ⟨1, _⟩ => show win0_8.index t 1 * 256 + 1 * j.val = j.val; rw [h1]; omega

/-- Window 9's block at any point is its whole array. -/
theorem iblk9_at (t : Fin cfg0.N) (r : Fin 1) (j : Fin 17) :
    (iblk m c 9 t : Vec Ideal S1x17 .f32) (ix2 r j) = (V m c main_v29 : S1x17.Idx → EReal) (ix2 r j) := by
  obtain ⟨h0, h1⟩ := idx9 t
  unfold iblk
  rw [View.read_apply]
  show V m c main_v29 _ = V m c main_v29 _
  congr 1
  funext a
  apply Fin.ext
  match a with
  | ⟨0, _⟩ => show win0_9.index t 0 * 1 + 1 * r.val = r.val; rw [h0]; omega
  | ⟨1, _⟩ => show win0_9.index t 1 * 17 + 1 * j.val = j.val; rw [h1]; omega

/-- Window 10's block at any point is its whole array. -/
theorem iblk10_at (t : Fin cfg0.N) (r : Fin 256) (j : Fin 256) :
    (iblk m c 10 t : Vec Ideal S256x256 .bf16) (ix2 r j) = (V m c main_v21 : S256x256.Idx → EReal) (ix2 r j) := by
  obtain ⟨h0, h1⟩ := idx10 t
  unfold iblk
  rw [View.read_apply]
  show V m c main_v21 _ = V m c main_v21 _
  congr 1
  funext a
  apply Fin.ext
  match a with
  | ⟨0, _⟩ => show win0_10.index t 0 * 256 + 1 * r.val = r.val; rw [h0]; omega
  | ⟨1, _⟩ => show win0_10.index t 1 * 256 + 1 * j.val = j.val; rw [h1]; omega

/-- Window 11's block at any point is its whole array. -/
theorem iblk11_at (t : Fin cfg0.N) (r : Fin 256) (j : Fin 256) :
    (iblk m c 11 t : Vec Ideal S256x256 .bf16) (ix2 r j) = (V m c main_v23 : S256x256.Idx → EReal) (ix2 r j) := by
  obtain ⟨h0, h1⟩ := idx11 t
  unfold iblk
  rw [View.read_apply]
  show V m c main_v23 _ = V m c main_v23 _
  congr 1
  funext a
  apply Fin.ext
  match a with
  | ⟨0, _⟩ => show win0_11.index t 0 * 256 + 1 * r.val = r.val; rw [h0]; omega
  | ⟨1, _⟩ => show win0_11.index t 1 * 256 + 1 * j.val = j.val; rw [h1]; omega

/-- Window 12's block at any point is its whole array. -/
theorem iblk12_at (t : Fin cfg0.N) (r : Fin 1) (j : Fin 256) :
    (iblk m c 12 t : Vec Ideal S1x256 .f32) (ix2 r j) = (V m c main_v30 : S1x256.Idx → EReal) (ix2 r j) := by
  obtain ⟨h0, h1⟩ := idx12 t
  unfold iblk
  rw [View.read_apply]
  show V m c main_v30 _ = V m c main_v30 _
  congr 1
  funext a
  apply Fin.ext
  match a with
  | ⟨0, _⟩ => show win0_12.index t 0 * 1 + 1 * r.val = r.val; rw [h0]; omega
  | ⟨1, _⟩ => show win0_12.index t 1 * 256 + 1 * j.val = j.val; rw [h1]; omega

/-- Window 13's block at any point is its whole array. -/
theorem iblk13_at (t : Fin cfg0.N) (r : Fin 256) (j : Fin 128) :
    (iblk m c 13 t : Vec Ideal S256x128 .bf16) (ix2 r j) = (V m c main_v24 : S256x128.Idx → EReal) (ix2 r j) := by
  obtain ⟨h0, h1⟩ := idx13 t
  unfold iblk
  rw [View.read_apply]
  show V m c main_v24 _ = V m c main_v24 _
  congr 1
  funext a
  apply Fin.ext
  match a with
  | ⟨0, _⟩ => show win0_13.index t 0 * 256 + 1 * r.val = r.val; rw [h0]; omega
  | ⟨1, _⟩ => show win0_13.index t 1 * 128 + 1 * j.val = j.val; rw [h1]; omega

/-- Window 14's block at any point is its whole array. -/
theorem iblk14_at (t : Fin cfg0.N) (r : Fin 1) (j : Fin 128) :
    (iblk m c 14 t : Vec Ideal S1x128 .f32) (ix2 r j) = (V m c main_v31 : S1x128.Idx → EReal) (ix2 r j) := by
  obtain ⟨h0, h1⟩ := idx14 t
  unfold iblk
  rw [View.read_apply]
  show V m c main_v31 _ = V m c main_v31 _
  congr 1
  funext a
  apply Fin.ext
  match a with
  | ⟨0, _⟩ => show win0_14.index t 0 * 1 + 1 * r.val = r.val; rw [h0]; omega
  | ⟨1, _⟩ => show win0_14.index t 1 * 128 + 1 * j.val = j.val; rw [h1]; omega

/-- Window 15's block at any point is its whole array. -/
theorem iblk15_at (t : Fin cfg0.N) (r : Fin 128) (j : Fin 1) :
    (iblk m c 15 t : Vec Ideal S128x1 .bf16) (ix2 r j) = (V m c main_v25 : S128x1.Idx → EReal) (ix2 r j) := by
  obtain ⟨h0, h1⟩ := idx15 t
  unfold iblk
  rw [View.read_apply]
  show V m c main_v25 _ = V m c main_v25 _
  congr 1
  funext a
  apply Fin.ext
  match a with
  | ⟨0, _⟩ => show win0_15.index t 0 * 128 + 1 * r.val = r.val; rw [h0]; omega
  | ⟨1, _⟩ => show win0_15.index t 1 * 1 + 1 * j.val = j.val; rw [h1]; omega

/-- Window 16's block at any point is its whole array. -/
theorem iblk16_at (t : Fin cfg0.N) (r : Fin 1) (j : Fin 1) :
    (iblk m c 16 t : Vec Ideal S1x1 .f32) (ix2 r j) = (V m c main_v32 : S1x1.Idx → EReal) (ix2 r j) := by
  obtain ⟨h0, h1⟩ := idx16 t
  unfold iblk
  rw [View.read_apply]
  show V m c main_v32 _ = V m c main_v32 _
  congr 1
  funext a
  apply Fin.ext
  match a with
  | ⟨0, _⟩ => show win0_16.index t 0 * 1 + 1 * r.val = r.val; rw [h0]; omega
  | ⟨1, _⟩ => show win0_16.index t 1 * 1 + 1 * j.val = j.val; rw [h1]; omega

/-! ## The output block -/

/-- Entry (p, u) of the output block at point t is entry (2048 t + p, u) of the output array. -/
theorem out_emb (t : Fin cfg0.N) (p : Fin 2048) (u : Fin 1) :
    ((cfg0.win 17).blk t).view.emb (ix2 p u) = (ix2 (rowAt t p) u : S16384x1.Idx) := by
  obtain ⟨h0, h1⟩ := idx17 t
  funext a
  apply Fin.ext
  match a with
  | ⟨0, _⟩ => show win0_17.index t 0 * 2048 + 1 * p.val = 2048 * t.val + p.val; rw [h0]; omega
  | ⟨1, _⟩ => show win0_17.index t 1 * 1 + 1 * u.val = u.val; rw [h1]; omega

/-- Every entry of the output array lies in the block of some point, which is written back: row r in that of
    point r / 2048. -/
theorem out_cover (i : S16384x1.Idx) :
    ∃ t : Fin cfg0.N, (cfg0.win 17).flush t = true ∧ i ∈ ((cfg0.win 17).blk t).view.set := by
  have hi0 : (i 0).val < 16384 := (i 0).isLt
  have hi1 : (i 1).val < 1 := (i 1).isLt
  have hN : cfg0.N = 8 := N_0
  obtain ⟨t, ht⟩ : ∃ t : Fin cfg0.N, t.val = (i 0).val / 2048 := ⟨⟨(i 0).val / 2048, by rw [hN]; omega⟩, rfl⟩
  obtain ⟨h0, h1⟩ := idx17 t
  refine ⟨t, flush0_17 t, ?_⟩
  show i ∈ ((View.whole main_v33).slice (win0_17.rect t)).set
  rw [View.set_slice_whole, Rect.mem_set_unit]
  intro a
  match a with
  | ⟨0, _⟩ =>
    show win0_17.index t (0 : Fin 2) * 2048 ≤ (i 0).val ∧ (i 0).val < win0_17.index t (0 : Fin 2) * 2048 + 2048
    rw [h0]; omega
  | ⟨1, _⟩ =>
    show win0_17.index t (1 : Fin 2) * 1 ≤ (i 1).val ∧ (i 1).val < win0_17.index t (1 : Fin 2) * 1 + 1
    rw [h1]; omega

end Cert.TowerFM.Blocks

end
-- ==== Proof.KerValue.lean ====
/-
  The kernel's output array, read off its run.

  The kernel walks the 16384 rows in eight blocks of 2048. At grid point t its body sees rows 2048 t … 2048 t + 2047
  of the two feature arrays and, whole, the fifteen arrays the host prepared from the weights: the towers' first 256
  columns and biases, their folded seventeen-column forms, the two halves of the first perceptron layer, and the
  other layers. Row p of what the body stores is therefore the second arrangement (RowSpec.lean's `kerRow`) of row
  2048 t + p of the argument arrays (`point_value`); the stored block is written back to rows 2048 t … of the output
  (`flushed_eq`); the eight blocks tile the output, so after the run the output array is `kerOut` of the arguments
  (`final`), and the run itself leaves the arguments as they were (`run`).
-/
import proofs.«161281_j72189810311759_2_alg».proof.Proof.Gen.KernelIdeal.Value
import proofs.«161281_j72189810311759_2_alg».proof.Proof.KerPayloadB
import proofs.«161281_j72189810311759_2_alg».proof.Proof.EntryArrays
import proofs.«161281_j72189810311759_2_alg».proof.Proof.BlockReads
import Idealize.ShloMosaic.Lib.ValueIdx
import Idealize.ShloMosaic.Lib.Pipeline.Value

noncomputable section

namespace Cert.TowerFM.KerValue

open Cert.KernelIdeal Cert.KernelIdeal.Gen Idealize.ShloMosaic Idealize.ShloMosaic.TcCoe Idealize.SL.Sem
open Idealize.ShloMosaic.ValueIdx Cert.TowerFM Cert.TowerFM.Blocks Cert.TowerFM.Entry
open Idealize.ShloMosaic.Pipeline (Dat)

variable (m : (ℓ : Loc nD τ sig) → Buf (Elt Ideal) ℓ) (ρ : Dev nD → PrngReg)

/-- The kernel's output array on core `c`: the second arrangement of every row of the argument arrays. -/
def G (c : Dev nD) : S16384x1.Idx → EReal :=
  kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem hz : (![0, 0] : Fin 2 → Nat) = fun _ => 0 := funext fun a => by fin_cases a <;> rfl

/-- Row `p` of the block at grid point `t`: the body's arithmetic on the blocks the pipeline hands it is the row
    function of row `2048 t + p` of the two feature arrays and of the weights as the host laid them out. -/
theorem point_value (c : Dev nD) (t : Fin cfg0.N) (p : Fin 2048) (u : Fin 1) :
    k0_pay8 (F := Ideal) (k0_pay1 (iblk m c 0 t) (iblk m c 2 t) (iblk m c 4 t)) (k0_pay3 (iblk m c 1 t) (iblk m c 6 t) (iblk m c 8 t)) (k0_pay5 (iblk m c 0 t) (iblk m c 3 t) (iblk m c 5 t)) (k0_pay6 (iblk m c 1 t) (iblk m c 7 t) (iblk m c 9 t)) (k0_pay7 (iblk m c 0 t) (iblk m c 1 t) (iblk m c 3 t) (iblk m c 5 t) (iblk m c 7 t) (iblk m c 9 t)) (iblk m c 10 t) (iblk m c 11 t) (iblk m c 12 t) (iblk m c 13 t) (iblk m c 14 t) (iblk m c 15 t) (iblk m c 16 t) (ix2 p u)
      = G m c (ix2 (rowAt t p) u) := by
  refine (Payload.body_at _ _ _ _ _ _ _ _ _ _ _ _ _ _ _ _ _ p u).trans ?_
  have e0 : rowOf (iblk m c 0 t : FVec Ideal S2048x512 .f32) p = rowOf (m ((c : Thread nD τ).loc main_arg0)) (rowAt t p) :=
    funext fun k => (iblk0_at m c t p k).trans (congrFun (V_main_arg0 m c) _)
  have e1 : rowOf (iblk m c 1 t : FVec Ideal S2048x512 .f32) p = rowOf (m ((c : Thread nD τ).loc main_arg1)) (rowAt t p) :=
    funext fun k => (iblk1_at m c t p k).trans (congrFun (V_main_arg1 m c) _)
  have e2 : mat (iblk m c 2 t : FVec Ideal S512x256 .f32) = fun r j => mat (m ((c : Thread nD τ).loc main_arg2)) r (mainCol j) :=
    funext fun r => funext fun j => (iblk2_at m c t r j).trans (v0_at m c r j)
  have e3 : mat (iblk m c 3 t : FVec Ideal S512x17 .f32) = foldW (mat (m ((c : Thread nD τ).loc main_arg2))) :=
    funext fun r => funext fun k => (iblk3_at m c t r k).trans (v8_at m c r k)
  have e4 : row0 (iblk m c 4 t : FVec Ideal S1x256 .f32) = fun j => vec (m ((c : Thread nD τ).loc main_arg3)) (mainCol j) :=
    funext fun j => (iblk4_at m c t 0 j).trans (v26_at m c 0 j)
  have e5 : row0 (iblk m c 5 t : FVec Ideal S1x17 .f32) = foldB (vec (m ((c : Thread nD τ).loc main_arg3))) :=
    funext fun k => (iblk5_at m c t 0 k).trans (v27_at m c 0 k)
  have e6 : mat (iblk m c 6 t : FVec Ideal S512x256 .f32) = fun r j => mat (m ((c : Thread nD τ).loc main_arg4)) r (mainCol j) :=
    funext fun r => funext fun j => (iblk6_at m c t r j).trans (v10_at m c r j)
  have e7 : mat (iblk m c 7 t : FVec Ideal S512x17 .f32) = foldW (mat (m ((c : Thread nD τ).loc main_arg4))) :=
    funext fun r => funext fun k => (iblk7_at m c t r k).trans (v18_at m c r k)
  have e8 : row0 (iblk m c 8 t : FVec Ideal S1x256 .f32) = fun j => vec (m ((c : Thread nD τ).loc main_arg5)) (mainCol j) :=
    funext fun j => (iblk8_at m c t 0 j).trans (v28_at m c 0 j)
  have e9 : row0 (iblk m c 9 t : FVec Ideal S1x17 .f32) = foldB (vec (m ((c : Thread nD τ).loc main_arg5))) :=
    funext fun k => (iblk9_at m c t 0 k).trans (v29_at m c 0 k)
  have e10 : mat (iblk m c 10 t : FVec Ideal S256x256 .bf16) = fun a j => mat (m ((c : Thread nD τ).loc main_arg6)) (lowRow a) j :=
    funext fun a => funext fun j => (iblk10_at m c t a j).trans (v21_at m c a j)
  have e11 : mat (iblk m c 11 t : FVec Ideal S256x256 .bf16) = fun a j => mat (m ((c : Thread nD τ).loc main_arg6)) (highRow a) j :=
    funext fun a => funext fun j => (iblk11_at m c t a j).trans (v23_at m c a j)
  have e12 : row0 (iblk m c 12 t : FVec Ideal S1x256 .f32) = vec (m ((c : Thread nD τ).loc main_arg7)) :=
    funext fun j => (iblk12_at m c t 0 j).trans (v30_at m c 0 j)
  have e13 : mat (iblk m c 13 t : FVec Ideal S256x128 .bf16) = mat (m ((c : Thread nD τ).loc main_arg8)) :=
    funext fun j => funext fun k => (iblk13_at m c t j k).trans (v24_at m c j k)
  have e14 : row0 (iblk m c 14 t : FVec Ideal S1x128 .f32) = vec (m ((c : Thread nD τ).loc main_arg9)) :=
    funext fun k => (iblk14_at m c t 0 k).trans (v31_at m c 0 k)
  have e15 : mat (iblk m c 15 t : FVec Ideal S128x1 .bf16) = mat (m ((c : Thread nD τ).loc main_arg10)) :=
    funext fun k => funext fun q => (iblk15_at m c t k q).trans (v25_at m c k q)
  have e16 : row0 (iblk m c 16 t : FVec Ideal S1x1 .f32) = vec (m ((c : Thread nD τ).loc main_arg11)) :=
    funext fun q => (iblk16_at m c t 0 q).trans (v32_at m c 0 q)
  rw [e0, e1, e2, e3, e4, e5, e6, e7, e8, e9, e10, e11, e12, e13, e14, e15, e16]
  rfl

/-- What grid point `t` writes back is block `t` of `G`. -/
theorem flushed_eq (c : Dev nD) (t : Fin cfg0.N) :
    (dats m 0 c).flushed 17 t = ((cfg0.win 17).blk t).view.read (Elt Ideal) (G m c) := by
  rw [Cert.KernelIdeal.Value.flushed17]
  unfold out0_17
  rw [View.canon_unit_zero hz]
  simp only [View.ld_unit_zero (S := S2048x512) hz, View.ld_unit_zero (S := S512x256) hz, View.ld_unit_zero (S := S1x256) hz,
    View.ld_unit_zero (S := S512x17) hz, View.ld_unit_zero (S := S1x17) hz, View.ld_unit_zero (S := S256x256) hz,
    View.ld_unit_zero (S := S256x128) hz, View.ld_unit_zero (S := S1x128) hz, View.ld_unit_zero (S := S128x1) hz,
    View.ld_unit_zero (S := S1x1) hz]
  funext j
  show k0_pay8 (F := Ideal) (k0_pay1 (iblk m c 0 t) (iblk m c 2 t) (iblk m c 4 t)) (k0_pay3 (iblk m c 1 t) (iblk m c 6 t) (iblk m c 8 t)) (k0_pay5 (iblk m c 0 t) (iblk m c 3 t) (iblk m c 5 t)) (k0_pay6 (iblk m c 1 t) (iblk m c 7 t) (iblk m c 9 t)) (k0_pay7 (iblk m c 0 t) (iblk m c 1 t) (iblk m c 3 t) (iblk m c 5 t) (iblk m c 7 t) (iblk m c 9 t)) (iblk m c 10 t) (iblk m c 11 t) (iblk m c 12 t) (iblk m c 13 t) (iblk m c 14 t) (iblk m c 15 t) (iblk m c 16 t) j = G m c (((cfg0.win 17).blk t).view.emb j)
  have hj : j = ix2 (⟨(j 0).val, (j 0).isLt⟩ : Fin 2048) (⟨(j 1).val, (j 1).isLt⟩ : Fin 1) :=
    funext fun a => by
      match a with
      | ⟨0, _⟩ => rfl
      | ⟨1, _⟩ => rfl
  rw [hj, out_emb]
  exact point_value m c t _ _

/-- The blocks of the eight grid points tile the output array, so after the run the array is `G`. -/
theorem final (c : Dev nD) : (dats m 0 c).arrAt 17 cfg0.N = G m c :=
  (dats m 0 c).arrAt_eq_of_cover 17 (G m c) (fun t _ => flushed_eq m c t) out_cover

/-- The kernel's run: it terminates with the output array at `G` and the arguments as they were. -/
theorem run : θ_run defs (onTc (τ := τ) (main (F := Ideal))) ⟨m, fun _ => 0, ρ⟩ fun r => ∀ c : Dev nD,
      r.2.mem ((c : Thread nD τ).loc main_v33) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.TowerFM.KerValue

end
-- ==== Proof.RefReading.lean ====
/-
  The reference program's result array is the network's output in its direct arrangement.

  Every host operation of the reference is read at an index: each tower is a contraction of a feature row with the
  tower's weight matrix plus the bias; the additive terms are column 256 of the towers; the interaction term sums, over
  the 256 pairs of embeddings and the sixteen coordinates, the product of a movie coordinate and a user coordinate; the
  perceptron contracts the joined embedding coordinates, clamps, contracts, clamps, contracts. Put together at row `p`
  this is `refRow` of row `p` of the two feature arrays.
-/
import proofs.«161281_j72189810311759_2_alg».proof.Proof.Gen.ReferenceIdeal.Read
import proofs.«161281_j72189810311759_2_alg».proof.Proof.ArraySpec
import Idealize.ShloMosaic.Lib.ValueIdx
import Idealize.ShloMosaic.Lib.Pipeline.Value
import Idealize.ShloMosaic.PureOps.Ideal.Laws

open scoped BigOperators

noncomputable section

namespace Cert.TowerFM.RefReading

open Cert.ReferenceIdeal Cert.ReferenceIdeal.Read Idealize.ShloMosaic Idealize.ShloMosaic.ValueIdx Cert.TowerFM

/-- The movie tower at row `p`, column `c`: the row's contraction with the weights plus the bias. -/
theorem tower_m (x0 : (⟨S16384x512, .f32⟩ : BufTy).Contents (Elt Ideal)) (x2 : (⟨S512x257, .f32⟩ : BufTy).Contents (Elt Ideal))
    (x3 : (⟨S257, .f32⟩ : BufTy).Contents (Elt Ideal)) (p : Fin 16384) (c : Fin 257) :
    val_main_v3 (F := Ideal) x0 x2 x3 (ix2 p c) = lin (rowOf x0 p) (mat x2) (vec x3) c := by
  rw [val_main_v3_apply, val_main_v0_apply, val_main_v2_apply, val_main_v1_apply, Ideal.addf_def]
  unfold lin rowOf mat vec
  have el : ∀ k : Fin 512, lidx_main_v0 (ix2 p c) k = ix2 p k := fun k =>
    funext fun a => match a with | ⟨0, _⟩ => rfl | ⟨1, _⟩ => rfl
  have er : ∀ k : Fin 512, ridx_main_v0 (ix2 p c) k = ix2 k c := fun k =>
    funext fun a => match a with | ⟨0, _⟩ => rfl | ⟨1, _⟩ => rfl
  have eb : idx_main_v1 (idx_main_v2 (ix2 p c)) = ix1 c :=
    funext fun a => match a with | ⟨0, _⟩ => rfl
  simp only [el, er, eb]

/-- The user tower at row `p`, column `c`. -/
theorem tower_u (x1 : (⟨S16384x512, .f32⟩ : BufTy).Contents (Elt Ideal)) (x4 : (⟨S512x257, .f32⟩ : BufTy).Contents (Elt Ideal))
    (x5 : (⟨S257, .f32⟩ : BufTy).Contents (Elt Ideal)) (p : Fin 16384) (c : Fin 257) :
    val_main_v7 (F := Ideal) x1 x4 x5 (ix2 p c) = lin (rowOf x1 p) (mat x4) (vec x5) c := by
  rw [val_main_v7_apply, val_main_v4_apply, val_main_v6_apply, val_main_v5_apply, Ideal.addf_def]
  unfold lin rowOf mat vec
  have el : ∀ k : Fin 512, lidx_main_v4 (ix2 p c) k = ix2 p k := fun k =>
    funext fun a => match a with | ⟨0, _⟩ => rfl | ⟨1, _⟩ => rfl
  have er : ∀ k : Fin 512, ridx_main_v4 (ix2 p c) k = ix2 k c := fun k =>
    funext fun a => match a with | ⟨0, _⟩ => rfl | ⟨1, _⟩ => rfl
  have eb : idx_main_v5 (idx_main_v6 (ix2 p c)) = ix1 c :=
    funext fun a => match a with | ⟨0, _⟩ => rfl
  simp only [el, er, eb]

/-- The two additive terms at row `p`: column 256 of each tower. -/
theorem additive (x0 x1 : (⟨S16384x512, .f32⟩ : BufTy).Contents (Elt Ideal)) (x2 : (⟨S512x257, .f32⟩ : BufTy).Contents (Elt Ideal))
    (x3 : (⟨S257, .f32⟩ : BufTy).Contents (Elt Ideal)) (x4 : (⟨S512x257, .f32⟩ : BufTy).Contents (Elt Ideal))
    (x5 : (⟨S257, .f32⟩ : BufTy).Contents (Elt Ideal)) (p : Fin 16384) (q : Fin 1) :
    val_main_v36 (F := Ideal) x0 x1 x2 x3 x4 x5 (ix2 p q)
      = lin (rowOf x0 p) (mat x2) (vec x3) addCol + lin (rowOf x1 p) (mat x4) (vec x5) addCol := by
  rw [val_main_v36_apply, val_main_v12_apply, val_main_v9_apply, val_main_v8_apply, val_main_v11_apply, val_main_v10_apply,
    Ideal.addf_def]
  have hq : q.val = 0 := by have := q.isLt; omega
  have em : idx_main_v8 (idx_main_v9 (idx_main_v36 (ix2 p q))) = ix2 p addCol := funext fun a => Fin.ext (by
    match a with
    | ⟨0, _⟩ => show p.val / 1 = p.val; omega
    | ⟨1, _⟩ => rfl)
  have eu : idx_main_v10 (idx_main_v11 (idx_main_v36 (ix2 p q))) = ix2 p addCol := funext fun a => Fin.ext (by
    match a with
    | ⟨0, _⟩ => show p.val / 1 = p.val; omega
    | ⟨1, _⟩ => rfl)
  rw [em, eu, tower_m, tower_u]

/-- The interaction term at row `p`: over the 256 pairs of embeddings and the sixteen coordinates, the products of a
    movie coordinate and a user coordinate. -/
theorem interaction (x0 x1 : (⟨S16384x512, .f32⟩ : BufTy).Contents (Elt Ideal)) (x2 : (⟨S512x257, .f32⟩ : BufTy).Contents (Elt Ideal))
    (x3 : (⟨S257, .f32⟩ : BufTy).Contents (Elt Ideal)) (x4 : (⟨S512x257, .f32⟩ : BufTy).Contents (Elt Ideal))
    (x5 : (⟨S257, .f32⟩ : BufTy).Contents (Elt Ideal)) (p : Fin 16384) (q : Fin 1) :
    val_main_v39 (F := Ideal) x0 x1 x2 x3 x4 x5 (ix2 p q)
      = ∑ c : Fin 256, ∑ k : Fin 16,
          lin (rowOf x0 p) (mat x2) (vec x3) (emb (hi16 c) k) * lin (rowOf x1 p) (mat x4) (vec x5) (emb (lo16 c) k) := by
  rw [val_main_v39_apply, val_main_v38_apply, val_main_cst_apply, Ideal.ofBits_def, Ideal.ofBits_zero_f32, zero_add]
  refine Finset.sum_congr rfl fun c _ => ?_
  rw [val_main_v18_apply, val_main_v17_apply]
  refine Finset.sum_congr rfl fun k _ => ?_
  rw [val_main_v14_apply, val_main_v13_apply, val_main_v16_apply, val_main_v15_apply]
  have hc := c.isLt
  have hk := k.isLt
  have hp := p.isLt
  have em : idx_main_v13 (idx_main_v14 (lidx_main_v17 (idx_main_v18 (idx_main_v38 (idx_main_v39 (ix2 p q)) c)) k))
      = ix2 p (emb (hi16 c) k) := funext fun a => Fin.ext (by
    match a with
    | ⟨0, _⟩ =>
      show (((p.val * 256 + c.val) / 256 * 16 + (p.val * 256 + c.val) / 16 % 16) * 16 + k.val) / 256 = p.val
      omega
    | ⟨1, _⟩ =>
      show (((p.val * 256 + c.val) / 256 * 16 + (p.val * 256 + c.val) / 16 % 16) * 16 + k.val) % 256 = 16 * (c.val / 16) + k.val
      omega)
  have eu : idx_main_v15 (idx_main_v16 (ridx_main_v17 (idx_main_v18 (idx_main_v38 (idx_main_v39 (ix2 p q)) c)) k))
      = ix2 p (emb (lo16 c) k) := funext fun a => Fin.ext (by
    match a with
    | ⟨0, _⟩ =>
      show (((p.val * 256 + c.val) / 256 * 16 + (p.val * 256 + c.val) % 16) * 16 + k.val) / 256 = p.val
      omega
    | ⟨1, _⟩ =>
      show (((p.val * 256 + c.val) / 256 * 16 + (p.val * 256 + c.val) % 16) * 16 + k.val) % 256 = 16 * (c.val % 16) + k.val
      omega)
  rw [em, eu, tower_m, tower_u]

/-- The joined embedding coordinates at row `p`, column `k` of 512: the movie tower's first 256 columns, then the
    user tower's. -/
theorem joined_at (x0 x1 : (⟨S16384x512, .f32⟩ : BufTy).Contents (Elt Ideal)) (x2 : (⟨S512x257, .f32⟩ : BufTy).Contents (Elt Ideal))
    (x3 : (⟨S257, .f32⟩ : BufTy).Contents (Elt Ideal)) (x4 : (⟨S512x257, .f32⟩ : BufTy).Contents (Elt Ideal))
    (x5 : (⟨S257, .f32⟩ : BufTy).Contents (Elt Ideal)) (p : Fin 16384) (k : Fin 512) :
    val_main_v21 (F := Ideal) x0 x1 x2 x3 x4 x5 (ix2 p k)
      = joined (lin (rowOf x0 p) (mat x2) (vec x3)) (lin (rowOf x1 p) (mat x4) (vec x5)) k := by
  unfold val_main_v21 joined
  have hk := k.isLt
  by_cases h : k.val < 256
  · rw [dif_pos h]
    refine (concatenate_pair_apply_left (t := S16384x512) (s₁ := S16384x256) (s₂ := S16384x256) _ _ _ _ (ix2 p k) rfl
      (ix2 p (⟨k.val, h⟩ : Fin 256) : S16384x256.Idx) (fun b => match b with | ⟨0, _⟩ => rfl | ⟨1, _⟩ => rfl)).trans ?_
    rw [val_main_v19_apply]
    have e : idx_main_v19 (ix2 p (⟨k.val, h⟩ : Fin 256)) = ix2 p (mainCol ⟨k.val, h⟩) :=
      funext fun a => match a with | ⟨0, _⟩ => rfl | ⟨1, _⟩ => rfl
    rw [e, tower_m]
  · rw [dif_neg h]
    have h2 : k.val - 256 < 256 := by omega
    refine (concatenate_pair_apply_right (t := S16384x512) (s₁ := S16384x256) (s₂ := S16384x256) _ _ _ _ (ix2 p k) rfl rfl
      (ix2 p (⟨k.val - 256, h2⟩ : Fin 256) : S16384x256.Idx)
      (fun b hb => match b, hb with | ⟨0, _⟩, _ => rfl | ⟨1, _⟩, hb => absurd rfl hb)
      (by show k.val - 256 + 256 = k.val; omega)).trans ?_
    rw [val_main_v20_apply]
    have e : idx_main_v20 (ix2 p (⟨k.val - 256, h2⟩ : Fin 256)) = ix2 p (mainCol ⟨k.val - 256, h2⟩) :=
      funext fun a => match a with | ⟨0, _⟩ => rfl | ⟨1, _⟩ => rfl
    rw [e, tower_u]

/-- The first perceptron layer before its clamp, at row `p`, output `j`. -/
theorem layer1 (x0 x1 : (⟨S16384x512, .f32⟩ : BufTy).Contents (Elt Ideal)) (x2 : (⟨S512x257, .f32⟩ : BufTy).Contents (Elt Ideal))
    (x3 : (⟨S257, .f32⟩ : BufTy).Contents (Elt Ideal)) (x4 : (⟨S512x257, .f32⟩ : BufTy).Contents (Elt Ideal))
    (x5 : (⟨S257, .f32⟩ : BufTy).Contents (Elt Ideal)) (x6 : (⟨S512x256, .f32⟩ : BufTy).Contents (Elt Ideal))
    (x7 : (⟨S256, .f32⟩ : BufTy).Contents (Elt Ideal)) (p : Fin 16384) (j : Fin 256) :
    val_main_v25 (F := Ideal) x0 x1 x2 x3 x4 x5 x6 x7 (ix2 p j)
      = lin (joined (lin (rowOf x0 p) (mat x2) (vec x3)) (lin (rowOf x1 p) (mat x4) (vec x5))) (mat x6) (vec x7) j := by
  rw [val_main_v25_apply, val_main_v22_apply, val_main_v24_apply, val_main_v23_apply, Ideal.addf_def]
  have el : ∀ k : Fin 512, lidx_main_v22 (ix2 p j) k = ix2 p k := fun k =>
    funext fun a => match a with | ⟨0, _⟩ => rfl | ⟨1, _⟩ => rfl
  have er : ∀ k : Fin 512, ridx_main_v22 (ix2 p j) k = ix2 k j := fun k =>
    funext fun a => match a with | ⟨0, _⟩ => rfl | ⟨1, _⟩ => rfl
  have eb : idx_main_v23 (idx_main_v24 (ix2 p j)) = ix1 j :=
    funext fun a => match a with | ⟨0, _⟩ => rfl
  simp only [el, er, eb, joined_at]
  rfl

/-- The first perceptron layer after its clamp. -/
theorem layer1_relu (x0 x1 : (⟨S16384x512, .f32⟩ : BufTy).Contents (Elt Ideal)) (x2 : (⟨S512x257, .f32⟩ : BufTy).Contents (Elt Ideal))
    (x3 : (⟨S257, .f32⟩ : BufTy).Contents (Elt Ideal)) (x4 : (⟨S512x257, .f32⟩ : BufTy).Contents (Elt Ideal))
    (x5 : (⟨S257, .f32⟩ : BufTy).Contents (Elt Ideal)) (x6 : (⟨S512x256, .f32⟩ : BufTy).Contents (Elt Ideal))
    (x7 : (⟨S256, .f32⟩ : BufTy).Contents (Elt Ideal)) (p : Fin 16384) (j : Fin 256) :
    val_main_v26 (F := Ideal) x0 x1 x2 x3 x4 x5 x6 x7 (ix2 p j)
      = relu (lin (joined (lin (rowOf x0 p) (mat x2) (vec x3)) (lin (rowOf x1 p) (mat x4) (vec x5))) (mat x6) (vec x7) j) := by
  rw [val_main_v26_apply, val_main_call0_v0_apply, val_main_call0_cst_apply, Ideal.maximumf_def, Ideal.ofBits_def,
    Ideal.ofBits_zero_f32, layer1]
  rfl

/-- The second perceptron layer before its clamp, at row `p`, output `k`. -/
theorem layer2 (x0 x1 : (⟨S16384x512, .f32⟩ : BufTy).Contents (Elt Ideal)) (x2 : (⟨S512x257, .f32⟩ : BufTy).Contents (Elt Ideal))
    (x3 : (⟨S257, .f32⟩ : BufTy).Contents (Elt Ideal)) (x4 : (⟨S512x257, .f32⟩ : BufTy).Contents (Elt Ideal))
    (x5 : (⟨S257, .f32⟩ : BufTy).Contents (Elt Ideal)) (x6 : (⟨S512x256, .f32⟩ : BufTy).Contents (Elt Ideal))
    (x7 : (⟨S256, .f32⟩ : BufTy).Contents (Elt Ideal)) (x8 : (⟨S256x128, .f32⟩ : BufTy).Contents (Elt Ideal))
    (x9 : (⟨S128, .f32⟩ : BufTy).Contents (Elt Ideal)) (p : Fin 16384) (k : Fin 128) :
    val_main_v30 (F := Ideal) x0 x1 x2 x3 x4 x5 x6 x7 x8 x9 (ix2 p k)
      = lin (fun j : Fin 256 => relu (lin (joined (lin (rowOf x0 p) (mat x2) (vec x3)) (lin (rowOf x1 p) (mat x4) (vec x5))) (mat x6) (vec x7) j)) (mat x8) (vec x9) k := by
  rw [val_main_v30_apply, val_main_v27_apply, val_main_v29_apply, val_main_v28_apply, Ideal.addf_def]
  have el : ∀ j : Fin 256, lidx_main_v27 (ix2 p k) j = ix2 p j := fun j =>
    funext fun a => match a with | ⟨0, _⟩ => rfl | ⟨1, _⟩ => rfl
  have er : ∀ j : Fin 256, ridx_main_v27 (ix2 p k) j = ix2 j k := fun j =>
    funext fun a => match a with | ⟨0, _⟩ => rfl | ⟨1, _⟩ => rfl
  have eb : idx_main_v28 (idx_main_v29 (ix2 p k)) = ix1 k :=
    funext fun a => match a with | ⟨0, _⟩ => rfl
  simp only [el, er, eb, layer1_relu]
  rfl

/-- The second perceptron layer after its clamp. -/
theorem layer2_relu (x0 x1 : (⟨S16384x512, .f32⟩ : BufTy).Contents (Elt Ideal)) (x2 : (⟨S512x257, .f32⟩ : BufTy).Contents (Elt Ideal))
    (x3 : (⟨S257, .f32⟩ : BufTy).Contents (Elt Ideal)) (x4 : (⟨S512x257, .f32⟩ : BufTy).Contents (Elt Ideal))
    (x5 : (⟨S257, .f32⟩ : BufTy).Contents (Elt Ideal)) (x6 : (⟨S512x256, .f32⟩ : BufTy).Contents (Elt Ideal))
    (x7 : (⟨S256, .f32⟩ : BufTy).Contents (Elt Ideal)) (x8 : (⟨S256x128, .f32⟩ : BufTy).Contents (Elt Ideal))
    (x9 : (⟨S128, .f32⟩ : BufTy).Contents (Elt Ideal)) (p : Fin 16384) (k : Fin 128) :
    val_main_v31 (F := Ideal) x0 x1 x2 x3 x4 x5 x6 x7 x8 x9 (ix2 p k)
      = relu (lin (fun j : Fin 256 => relu (lin (joined (lin (rowOf x0 p) (mat x2) (vec x3)) (lin (rowOf x1 p) (mat x4) (vec x5))) (mat x6) (vec x7) j)) (mat x8) (vec x9) k) := by
  rw [val_main_v31_apply, val_main_call1_v0_apply, val_main_call1_cst_apply, Ideal.maximumf_def, Ideal.ofBits_def,
    Ideal.ofBits_zero_f32, layer2]
  rfl

/-- The perceptron's output at row `p`. -/
theorem perceptron (x0 x1 : (⟨S16384x512, .f32⟩ : BufTy).Contents (Elt Ideal)) (x2 : (⟨S512x257, .f32⟩ : BufTy).Contents (Elt Ideal))
    (x3 : (⟨S257, .f32⟩ : BufTy).Contents (Elt Ideal)) (x4 : (⟨S512x257, .f32⟩ : BufTy).Contents (Elt Ideal))
    (x5 : (⟨S257, .f32⟩ : BufTy).Contents (Elt Ideal)) (x6 : (⟨S512x256, .f32⟩ : BufTy).Contents (Elt Ideal))
    (x7 : (⟨S256, .f32⟩ : BufTy).Contents (Elt Ideal)) (x8 : (⟨S256x128, .f32⟩ : BufTy).Contents (Elt Ideal))
    (x9 : (⟨S128, .f32⟩ : BufTy).Contents (Elt Ideal)) (x10 : (⟨S128x1, .f32⟩ : BufTy).Contents (Elt Ideal))
    (x11 : (⟨S1, .f32⟩ : BufTy).Contents (Elt Ideal)) (p : Fin 16384) (q : Fin 1) :
    val_main_v35 (F := Ideal) x0 x1 x2 x3 x4 x5 x6 x7 x8 x9 x10 x11 (ix2 p q)
      = tail (lin (joined (lin (rowOf x0 p) (mat x2) (vec x3)) (lin (rowOf x1 p) (mat x4) (vec x5))) (mat x6) (vec x7))
          (mat x8) (vec x9) (mat x10) (vec x11) := by
  obtain rfl : q = 0 := Subsingleton.elim _ _
  rw [val_main_v35_apply, val_main_v32_apply, val_main_v34_apply, val_main_v33_apply, Ideal.addf_def]
  have el : ∀ k : Fin 128, lidx_main_v32 (ix2 p (0 : Fin 1)) k = ix2 p k := fun k =>
    funext fun a => match a with | ⟨0, _⟩ => rfl | ⟨1, _⟩ => rfl
  have er : ∀ k : Fin 128, ridx_main_v32 (ix2 p (0 : Fin 1)) k = ix2 k (0 : Fin 1) := fun k =>
    funext fun a => match a with | ⟨0, _⟩ => rfl | ⟨1, _⟩ => rfl
  have eb : idx_main_v33 (idx_main_v34 (ix2 p (0 : Fin 1))) = ix1 (0 : Fin 1) :=
    funext fun a => match a with | ⟨0, _⟩ => rfl
  simp only [el, er, eb, layer2_relu]
  rfl

/-- The reference program's result array is the direct arrangement of the network's output. -/
theorem val_eq_refOut (x0 x1 : (⟨S16384x512, .f32⟩ : BufTy).Contents (Elt Ideal)) (x2 : (⟨S512x257, .f32⟩ : BufTy).Contents (Elt Ideal))
    (x3 : (⟨S257, .f32⟩ : BufTy).Contents (Elt Ideal)) (x4 : (⟨S512x257, .f32⟩ : BufTy).Contents (Elt Ideal))
    (x5 : (⟨S257, .f32⟩ : BufTy).Contents (Elt Ideal)) (x6 : (⟨S512x256, .f32⟩ : BufTy).Contents (Elt Ideal))
    (x7 : (⟨S256, .f32⟩ : BufTy).Contents (Elt Ideal)) (x8 : (⟨S256x128, .f32⟩ : BufTy).Contents (Elt Ideal))
    (x9 : (⟨S128, .f32⟩ : BufTy).Contents (Elt Ideal)) (x10 : (⟨S128x1, .f32⟩ : BufTy).Contents (Elt Ideal))
    (x11 : (⟨S1, .f32⟩ : BufTy).Contents (Elt Ideal)) :
    Cert.ReferenceIdeal.Read.val_main_v40 (F := Ideal) x0 x1 x2 x3 x4 x5 x6 x7 x8 x9 x10 x11
      = Cert.TowerFM.refOut x0 x1 x2 x3 x4 x5 x6 x7 x8 x9 x10 x11 := by
  funext i
  obtain ⟨p, q, rfl⟩ : ∃ (p : Fin 16384) (q : Fin 1), i = ix2 p q := ⟨i 0, i 1, eq_ix2 i⟩
  rw [val_main_v40_apply, val_main_v37_apply, Ideal.addf_def, Ideal.addf_def, perceptron, additive, interaction]
  rfl

end Cert.TowerFM.RefReading

end
-- ==== Proof.LibRealSum.lean ====
/-
  A real factor distributes over a finite sum of products of reals, on the extended reals.

  On the extended reals multiplication does not distribute over addition in general: with `s = ⊤`, `a = 2`, `b = -1`
  the product `s * (a + b)` is `⊤` while `s * a + s * b` is `⊤ + ⊥ = ⊥`. It does when every quantity is a real
  number: then both sides are the coercion of one real, and the law is the reals' own. The lemmas below state this for
  a weighted sum `∑ i, x i * w i` scaled by a factor `s`, with a zero summand in front as a sum with an initial
  value carries it.
-/
import Mathlib.Data.EReal.Operations
import Mathlib.Algebra.BigOperators.Ring.Finset

open scoped BigOperators

namespace Cert.RealSum

/-- An extended real that is the coercion of a real. -/
def IsReal (v : EReal) : Prop := ∃ r : ℝ, v = (r : EReal)

theorem isReal_coe (r : ℝ) : IsReal (r : EReal) := ⟨r, rfl⟩

theorem IsReal.mul {a b : EReal} (ha : IsReal a) (hb : IsReal b) : IsReal (a * b) := by
  obtain ⟨r, rfl⟩ := ha; obtain ⟨t, rfl⟩ := hb
  exact ⟨r * t, (EReal.coe_mul r t).symm⟩

theorem IsReal.add {a b : EReal} (ha : IsReal a) (hb : IsReal b) : IsReal (a + b) := by
  obtain ⟨r, rfl⟩ := ha; obtain ⟨t, rfl⟩ := hb
  exact ⟨r + t, (EReal.coe_add r t).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor moves inside a finite weighted sum of reals: `s * (0 + ∑ i, x i * w i) = 0 + ∑ i, (s * x i) * w i`. -/
theorem mul_zero_add_sum {ι : Type} [Fintype ι] {s : EReal} {x w : ι → EReal}
    (hs : IsReal s) (hx : ∀ i, IsReal (x i)) (hw : ∀ i, IsReal (w i)) :
    s * (0 + ∑ i, x i * w i) = 0 + ∑ i, (s * x i) * w i := by
  obtain ⟨r, rfl⟩ := hs
  choose xr hxr using hx
  choose wr hwr using hw
  simp only [hxr, hwr, zero_add]
  simp only [← EReal.coe_mul, ← coe_sum]
  congr 1
  rw [Finset.mul_sum]
  exact Finset.sum_congr rfl fun i _ => by ring

/-- The same without the zero summand. -/
theorem mul_sum {ι : Type} [Fintype ι] {s : EReal} {x w : ι → EReal}
    (hs : IsReal s) (hx : ∀ i, IsReal (x i)) (hw : ∀ i, IsReal (w i)) :
    s * ∑ i, x i * w i = ∑ i, (s * x i) * w i := by
  have h := mul_zero_add_sum hs hx hw
  rwa [zero_add, zero_add] at h

end Cert.RealSum
-- ==== Proof.RowAlgebra.lean ====
/-
  The two arrangements of one row of the two-tower factorization-machine network give the same number when every
  input and every tower weight is a real number.

  Three laws carry the proof.

  * Folding. For a coordinate k, the seventeen-column map whose weights are the tower's weights summed over the
    sixteen embeddings gives the sum of the tower's sixteen outputs at that coordinate:
    Σ_r x_r · (Σ_i W(r, 16 i + k)) + Σ_i b(16 i + k) = Σ_i (Σ_r x_r · W(r, 16 i + k) + b(16 i + k)).
    This moves a factor inside a sum, which on the extended reals fails at the infinities (⊤ + ⊥ = ⊥): it is here
    that the entries must be real. Every quantity is then the coercion of a real, the coercion is pushed outside
    the sums and products, and the law is the reals' own. The seventeenth column is the additive column unchanged,
    with no assumption.

  * Interaction. With m(i, k), u(j, k) the real tower outputs, Σ_k (Σ_i m(i,k)) · (Σ_j u(j,k)) =
    Σ_{c < 256} Σ_k m(c / 16, k) · u(c % 16, k): the product of two sums is the double sum of products, the sums
    over k and over the pairs are exchanged, and c ↦ (c / 16, c % 16) is a bijection from the 256 pair indices onto
    the pairs (i, j), with inverse (i, j) ↦ 16 i + j. Again a law of the reals.

  * First layer. A 512-term sum is the sum of its first 256 terms plus the sum of its last 256 terms, so the
    contraction of the joined 512 coordinates with a 512-row matrix is the movie half's contraction with rows
    0..255 plus the user half's with rows 256..511. Only the commutative-monoid laws of + are used, so no
    finiteness is needed, and the weights of the perceptron are arbitrary.

  The outer shape (perceptron + (additive terms)) + interaction is the same in both arrangements.
-/
import proofs.«161281_j72189810311759_2_alg».proof.Proof.RowSpec
import proofs.«161281_j72189810311759_2_alg».proof.Proof.LibRealSum

open scoped BigOperators

noncomputable section

namespace Cert.TowerFM

open Cert.RealSum

/-- A finite sum of reals is real. -/
theorem isReal_sum {ι : Type} (s : Finset ι) (f : ι → EReal) (hf : ∀ i, IsReal (f i)) :
    IsReal (∑ i ∈ s, f i) := by
  choose fr hfr using hf
  refine ⟨∑ i ∈ s, fr i, ?_⟩
  rw [coe_sum]
  exact Finset.sum_congr rfl fun i _ => hfr i

/-- A linear layer with real inputs, weights and bias has real outputs. -/
theorem isReal_lin {n o : ℕ} {x : Fin n → EReal} {W : Fin n → Fin o → EReal} {b : Fin o → EReal}
    (hx : ∀ k, IsReal (x k)) (hW : ∀ r c, IsReal (W r c)) (hb : ∀ c, IsReal (b c)) (c : Fin o) :
    IsReal (lin x W b c) :=
  IsReal.add (isReal_sum _ _ fun k => IsReal.mul (hx k) (hW k c)) (hb c)

/-! ### Folding -/

theorem foldW_sumCol (W : Fin 512 → Fin 257 → EReal) (r : Fin 512) (k : Fin 16) :
    foldW W r (sumCol k) = ∑ i : Fin 16, W r (emb i k) := by
  unfold foldW
  exact dif_pos k.isLt

theorem foldB_sumCol (b : Fin 257 → EReal) (k : Fin 16) :
    foldB b (sumCol k) = ∑ i : Fin 16, b (emb i k) := by
  unfold foldB
  exact dif_pos k.isLt

theorem foldW_extraCol (W : Fin 512 → Fin 257 → EReal) (r : Fin 512) :
    foldW W r extraCol = W r addCol := by
  unfold foldW
  exact dif_neg (Nat.lt_irrefl 16)

theorem foldB_extraCol (b : Fin 257 → EReal) : foldB b extraCol = b addCol := by
  unfold foldB
  exact dif_neg (Nat.lt_irrefl 16)

/-- The seventeenth column of the folded map is the tower's additive column. -/
theorem lin_fold_extraCol (x : Fin 512 → EReal) (W : Fin 512 → Fin 257 → EReal) (b : Fin 257 → EReal) :
    lin x (foldW W) (foldB b) extraCol = lin x W b addCol := by
  unfold lin
  simp only [foldW_extraCol, foldB_extraCol]

/-- Column k of the folded map is the sum over the sixteen embeddings of the tower's coordinate k. -/
theorem lin_fold_sumCol {x : Fin 512 → EReal} {W : Fin 512 → Fin 257 → EReal} {b : Fin 257 → EReal}
    (hx : ∀ k, IsReal (x k)) (hW : ∀ r c, IsReal (W r c)) (hb : ∀ c, IsReal (b c)) (k : Fin 16) :
    lin x (foldW W) (foldB b) (sumCol k) = ∑ i : Fin 16, lin x W b (emb i k) := by
  unfold lin
  simp only [foldW_sumCol, foldB_sumCol]
  choose xr hxr using hx
  choose Wr hWr using hW
  choose br hbr using hb
  simp only [hxr, hWr, hbr]
  simp only [← EReal.coe_mul, ← coe_sum, ← EReal.coe_add]
  congr 1
  rw [Finset.sum_add_distrib, Finset.sum_comm]
  congr 1
  exact Finset.sum_congr rfl fun r _ => Finset.mul_sum _ _ _

/-! ### Interaction -/

/-- The 256 pair indices c = 16 i + j and the pairs (i, j). -/
def pairEquiv : Fin 256 ≃ Fin 16 × Fin 16 where
  toFun c := (hi16 c, lo16 c)
  invFun p := ⟨16 * p.1.val + p.2.val, by have := p.1.isLt; have := p.2.isLt; omega⟩
  left_inv c := by
    apply Fin.ext
    simp only [hi16, lo16]
    omega
  right_inv p := by
    obtain ⟨i, j⟩ := p
    have hi := i.isLt
    have hj := j.isLt
    apply Prod.ext
    · apply Fin.ext
      simp only [hi16]
      omega
    · apply Fin.ext
      simp only [lo16]
      omega

/-- A sum over the pair indices is the double sum over the pairs. -/
theorem sum_pairs {β : Type} [AddCommMonoid β] (f : Fin 16 → Fin 16 → β) :
    ∑ c : Fin 256, f (hi16 c) (lo16 c) = ∑ i : Fin 16, ∑ j : Fin 16, f i j := by
  rw [← Fintype.sum_prod_type']
  exact Fintype.sum_equiv pairEquiv _ _ (fun _ => rfl)

/-- The sum over coordinates of the product of the two embedding sums is the sum over all pairs of embeddings of
    their inner product. -/
theorem interaction {M U : Fin 257 → EReal} (hM : ∀ c, IsReal (M c)) (hU : ∀ c, IsReal (U c)) :
    ∑ k : Fin 16, (∑ i : Fin 16, M (emb i k)) * (∑ j : Fin 16, U (emb j k))
      = ∑ c : Fin 256, ∑ k : Fin 16, M (emb (hi16 c) k) * U (emb (lo16 c) k) := by
  choose Mr hMr using hM
  choose Ur hUr using hU
  simp only [hMr, hUr]
  simp only [← EReal.coe_mul, ← coe_sum]
  congr 1
  rw [sum_pairs (fun i j => ∑ k : Fin 16, Mr (emb i k) * Ur (emb j k))]
  simp only [Finset.sum_mul_sum]
  rw [Finset.sum_comm]
  exact Finset.sum_congr rfl fun i _ => Finset.sum_comm

/-! ### First layer -/

theorem joined_lowRow (md ud : Fin 257 → EReal) (c : Fin 256) : joined md ud (lowRow c) = md (mainCol c) := by
  unfold joined
  exact dif_pos c.isLt

theorem joined_highRow (md ud : Fin 257 → EReal) (c : Fin 256) : joined md ud (highRow c) = ud (mainCol c) := by
  unfold joined
  have h : ¬ (highRow c).val < 256 := by simp only [highRow]; omega
  rw [dif_neg h]
  congr 2
  apply Fin.ext
  simp only [highRow]
  omega

/-- A contraction of the joined 512 coordinates is the movie half's plus the user half's. -/
theorem sum_joined (md ud : Fin 257 → EReal) (w : Fin 512 → EReal) :
    ∑ c : Fin 512, joined md ud c * w c
      = (∑ c : Fin 256, md (mainCol c) * w (lowRow c)) + ∑ c : Fin 256, ud (mainCol c) * w (highRow c) := by
  have h := Fin.sum_univ_add (a := 256) (b := 256) (fun c : Fin (256 + 256) => joined md ud c * w c)
  refine h.trans (congrArg₂ (· + ·) ?_ ?_)
  · exact Finset.sum_congr rfl fun c _ => congrArg (· * w (lowRow c)) (joined_lowRow md ud c)
  · exact Finset.sum_congr rfl fun c _ => congrArg (· * w (highRow c)) (joined_highRow md ud c)

/-- The first layer taken as two 256-term contractions is the first layer on the joined coordinates. -/
theorem firstLayer (md ud : Fin 257 → EReal) (W1 : Fin 512 → Fin 256 → EReal) (b1 : Fin 256 → EReal) :
    (fun j : Fin 256 => ((∑ c : Fin 256, md (mainCol c) * W1 (lowRow c) j)
        + (∑ c : Fin 256, ud (mainCol c) * W1 (highRow c) j)) + b1 j) = lin (joined md ud) W1 b1 := by
  funext j
  unfold lin
  rw [sum_joined md ud (fun c => W1 c j)]

/-! ### The row -/

/-- The two arrangements of the row agree when the inputs and the tower weights are real. -/
theorem kerRow_eq_refRow {x y : Fin 512 → EReal} {Wm Wu : Fin 512 → Fin 257 → EReal} {bm bu : Fin 257 → EReal}
    (W1 : Fin 512 → Fin 256 → EReal) (b1 : Fin 256 → EReal) (W2 : Fin 256 → Fin 128 → EReal) (b2 : Fin 128 → EReal)
    (W3 : Fin 128 → Fin 1 → EReal) (b3 : Fin 1 → EReal)
    (hx : ∀ k, Cert.RealSum.IsReal (x k)) (hy : ∀ k, Cert.RealSum.IsReal (y k))
    (hWm : ∀ r c, Cert.RealSum.IsReal (Wm r c)) (hbm : ∀ c, Cert.RealSum.IsReal (bm c))
    (hWu : ∀ r c, Cert.RealSum.IsReal (Wu r c)) (hbu : ∀ c, Cert.RealSum.IsReal (bu c)) :
    kerRow x y Wm bm Wu bu W1 b1 W2 b2 W3 b3 = refRow x y Wm bm Wu bu W1 b1 W2 b2 W3 b3 := by
  have hM : ∀ c, IsReal (lin x Wm bm c) := isReal_lin hx hWm hbm
  have hU : ∀ c, IsReal (lin y Wu bu c) := isReal_lin hy hWu hbu
  have hm : ∀ c : Fin 256,
      lin x (fun r c => Wm r (mainCol c)) (fun c => bm (mainCol c)) c = lin x Wm bm (mainCol c) := fun _ => rfl
  have hu : ∀ c : Fin 256,
      lin y (fun r c => Wu r (mainCol c)) (fun c => bu (mainCol c)) c = lin y Wu bu (mainCol c) := fun _ => rfl
  unfold kerRow kerRowGen refRow
  simp only [hm, hu]
  rw [firstLayer, lin_fold_extraCol, lin_fold_extraCol]
  simp only [lin_fold_sumCol hx hWm hbm, lin_fold_sumCol hy hWu hbu]
  rw [interaction hM hU]

end Cert.TowerFM

end
-- ==== Proof.FiniteArgs.lean ====
/-
  From the precondition "every float input is finite" to "every entry of the first six argument arrays is a real number".

  The precondition is the conjunction, over the twelve argument arrays, of "for all entries x, |x| < +∞", each stated as
  a reduction by "and" of the entrywise comparison, and the whole stated to equal 1. On the extended reals |x| is
  max x (-x), and an extended real x with max x (-x) < ⊤ is neither ⊤ nor ⊥, hence the coercion of a real.
-/
import proofs.«161281_j72189810311759_2_alg».proof.Defs
import proofs.«161281_j72189810311759_2_alg».proof.Proof.Gen.Pre_finite_inputs
import proofs.«161281_j72189810311759_2_alg».proof.Proof.LibRealSum
import Idealize.ShloMosaic.Lib.ReduceAll
import Idealize.ShloMosaic.Lib.ValueIdx
import Idealize.ShloMosaic.PureOps.Ideal.Laws

namespace Cert.TowerFM.Finite

open Idealize.ShloMosaic Cert.RealSum Cert.Pre_finite_inputs

/-- An extended real whose absolute value max x (-x) is below ⊤ is the coercion of a real:
    at ⊤ the maximum is ⊤, at ⊥ it is -⊥ = ⊤. -/
theorem isReal_of_abs_lt_top (x : EReal) (h : max x (-x) < ⊤) : IsReal x := by
  induction x using EReal.rec with
  | bot => simp at h
  | coe r => exact ⟨r, rfl⟩
  | top => simp at h

/-- The f32 word 0x7F800000 (sign 0, exponent all ones, fraction 0) denotes +∞. -/
theorem ofBits_inf : Ideal.ofBits .f32 0x7F800000#32 = (⊤ : EReal) := by
  simp [Ideal.ofBits, Ideal.ieee]

/-- The rank-0 shape has one index. -/
instance : Subsingleton S_.Idx := ⟨fun a b => funext fun d => d.elim0⟩

/-- If the "and" over all entries of the comparison |x| < inf is 1, where inf is +∞ at every entry,
    then every entry of x is a real number. -/
theorem all_real {S : Shape} {axes : List (Fin S.rank)} (x inf : FVec Ideal S .f32)
    (hinf : ∀ j, inf j = Ideal.ofBits .f32 0x7F800000#32)
    (init : IVec S_ 1) (h : S.ReducesTo axes S_) (hu : 0 < S_.numel)
    (e : Host.reduce IntOp.andi (cmpf .olt (Host.absf x) inf) init h hu ValueIdx.ix0 = 1#1) :
    ∀ j, IsReal (x j) := by
  intro j
  have hj : cmpf .olt (Host.absf x) inf j = 1#1 := Host.reduce_andi_all _ init h hu ValueIdx.ix0 e j
  have hj' : Ideal.cmp .olt (max (x j) (-(x j))) (⊤ : EReal) = 1#1 := by
    rw [← ofBits_inf, ← hinf j]; exact hj
  refine isReal_of_abs_lt_top (x j) ?_
  by_contra hlt
  have h0 : Ideal.cmp .olt (max (x j) (-(x j))) (⊤ : EReal) = 0#1 := by
    show BitVec.ofBool (decide (max (x j) (-(x j)) < ⊤)) = 0#1
    rw [decide_eq_false hlt]; rfl
  rw [h0] at hj'
  exact absurd hj' (by decide)

/-- The precondition, at the twelve argument arrays, makes every entry of the first six a real number. -/
theorem args_real [Cert.Pre_finite_inputs.Facts]
    (a0 a1 : FVec Ideal S16384x512 .f32) (a2 : FVec Ideal S512x257 .f32) (a3 : FVec Ideal S257 .f32)
    (a4 : FVec Ideal S512x257 .f32) (a5 : FVec Ideal S257 .f32) (a6 : FVec Ideal S512x256 .f32)
    (a7 : FVec Ideal S256 .f32) (a8 : FVec Ideal S256x128 .f32) (a9 : FVec Ideal S128 .f32)
    (a10 : FVec Ideal S128x1 .f32) (a11 : FVec Ideal S1 .f32)
    (h : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) := by
  have h0 := congrFun h ValueIdx.ix0
  dsimp only [Cert.Pre_finite_inputs.fn, fn_part1, fn_part2, fn_part3, andi] at h0
  simp only [IntOp.andi_eq_one] at h0
  obtain ⟨⟨⟨⟨⟨⟨⟨⟨⟨⟨⟨e0, e1⟩, e2⟩, e3⟩, e4⟩, e5⟩, _⟩, _⟩, _⟩, _⟩, _⟩, _⟩ := h0
  exact ⟨all_real a0 _ (fun _ => rfl) _ _ _ e0, all_real a1 _ (fun _ => rfl) _ _ _ e1,
    all_real a2 _ (fun _ => rfl) _ _ _ e2, all_real a3 _ (fun _ => rfl) _ _ _ e3,
    all_real a4 _ (fun _ => rfl) _ _ _ e4, all_real a5 _ (fun _ => rfl) _ _ _ e5⟩

end Cert.TowerFM.Finite
-- ==== Proof.lean ====
/-
  A two-tower factorization-machine network on 16384 rows, as a fused kernel and as its plain reference, are one
  function over the extended reals when every input entry is a real number.

  Each row of 512 movie features and 512 user features goes through a linear tower with 257 outputs (sixteen
  embeddings of sixteen coordinates and an additive term). The row's output is a three-layer perceptron of the 512
  embedding coordinates, plus the two additive terms, plus the sum over all pairs (i, j) of the inner product of
  movie embedding i with user embedding j.

  The reference computes exactly that. The kernel arranges it differently: the interaction term is
  Σ_k (Σ_i m(i,k)) · (Σ_j u(j,k)), and each inner sum is an output of a seventeen-column linear map whose weights the
  host folds from the tower's weights beforehand (summing the sixteen embeddings' columns); and the first perceptron
  layer is two 256-term contractions, one per tower, added. The two arrangements agree by distributivity and by
  exchanging finite sums — laws that fail on the extended reals at infinities (⊤ + ⊥ = ⊥), which is where the
  precondition enters: entries of the feature arrays and of the towers' weights and biases are real numbers. The
  perceptron's own weights need no such assumption: splitting its first contraction in two is a regrouping of one sum.

  RowSpec.lean and ArraySpec.lean state the two arrangements (`refRow` / `kerRow`, `refOut` / `kerOut`);
  RowAlgebra.lean proves they agree on real entries; RefReading.lean reads the reference's run as `refOut`;
  KerPayloadA/B.lean, HostFold.lean, EntryArrays.lean, BlockReads.lean and KerValue.lean read the kernel's run as
  `kerOut`; FiniteArgs.lean turns the precondition into real entries. Changes of float format are the identity on
  the extended reals and every product accumulates from zero, so no rounding or accumulation order appears.
-/
import proofs.«161281_j72189810311759_2_alg».proof.Defs
import proofs.«161281_j72189810311759_2_alg».proof.Proof.Gen.Kernel
import proofs.«161281_j72189810311759_2_alg».proof.Proof.Gen.Kernel.Skeleton
import proofs.«161281_j72189810311759_2_alg».proof.Proof.Gen.Kernel.Launch
import proofs.«161281_j72189810311759_2_alg».proof.Proof.Gen.Kernel.Points
import proofs.«161281_j72189810311759_2_alg».proof.Proof.Gen.Kernel.Frame
import proofs.«161281_j72189810311759_2_alg».proof.Proof.Gen.KernelIdeal
import proofs.«161281_j72189810311759_2_alg».proof.Proof.Gen.KernelIdeal.Skeleton
import proofs.«161281_j72189810311759_2_alg».proof.Proof.Gen.KernelIdeal.Launch
import proofs.«161281_j72189810311759_2_alg».proof.Proof.Gen.KernelIdeal.Points
import proofs.«161281_j72189810311759_2_alg».proof.Proof.Gen.KernelIdeal.Frame
import proofs.«161281_j72189810311759_2_alg».proof.Proof.Gen.ReferenceIdeal
import proofs.«161281_j72189810311759_2_alg».proof.Proof.Gen.KernelIdeal.Value
import proofs.«161281_j72189810311759_2_alg».proof.Proof.Gen.ReferenceIdeal.Run
import proofs.«161281_j72189810311759_2_alg».proof.Proof.Gen.ReferenceIdeal.Read
import proofs.«161281_j72189810311759_2_alg».proof.Proof.Gen.Pre_finite_inputs
import proofs.«161281_j72189810311759_2_alg».proof.Proof.KerValue
import proofs.«161281_j72189810311759_2_alg».proof.Proof.RefReading
import proofs.«161281_j72189810311759_2_alg».proof.Proof.RowAlgebra
import proofs.«161281_j72189810311759_2_alg».proof.Proof.FiniteArgs
import Idealize.ShloMosaic.Adequacy
import Idealize.ShloMosaic.Init

noncomputable section

namespace Cert.Proof

open Idealize.ShloMosaic Idealize.SL.Sem Cert.TowerFM

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- Over the extended reals, from memories that agree on the twelve arguments, both programs end with one output
    array. The kernel's is `kerOut` of the arguments and the reference's is `refOut`; every entry of the two feature
    arrays and of the two towers' weights and biases being a real number (the precondition), the two arrangements of
    each row agree. -/
theorem algebraic : Cert.algebraic_KernelIdeal_ReferenceIdeal := by
  intro m ρ m' ρ' hpre hagree
  refine ⟨_, KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  obtain ⟨r0, r1, r2, r3, r4, r5⟩ := Finite.args_real _ _ _ _ _ _ _ _ _ _ _ _ (hpre c)
  refine (Cert.ReferenceIdeal.Read.val_main_v40_eq _ _ _ _ _ _ _ _ _ _ _ _).trans ?_
  refine (RefReading.val_eq_refOut _ _ _ _ _ _ _ _ _ _ _ _).trans ?_
  rw [h0, h1, h2, h3, h4, h5, h6, h7, h8, h9, h10, h11]
  funext i
  exact (kerRow_eq_refRow _ _ _ _ _ _ (fun k => r0 _) (fun k => r1 _) (fun r c => r2 _) (fun c => r3 _)
    (fun r c => r4 _) (fun c => r5 _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
